-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x48 : Shape := ⟨2, ![16, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x48 : S_.BroadcastsInDim S16x48 (![] : Fin 0 → Fin S16x48.rank)
  reducesTo_S16x48_S_d0_1 : S16x48.ReducesTo [0, 1] S_
  bcast_S_S48 : S_.BroadcastsInDim S48 (![] : Fin 0 → Fin S48.rank)
  reducesTo_S48_S_d0 : S48.ReducesTo [0] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S32 .f32) (main_arg6 : FVec F S32x16 .f32) (main_arg7 : FVec F S16 .f32) (main_v13 : IVec S_ 1) (main_v16 : IVec S48x32 1) : IVec S_ 1 :=
  let main_c_5 : IVec S_ 1 := constantI S_ 1 1#1
  let main_v17 : IVec S_ 1 := (fun x v => Host.reduce IntOp.andi x v reducesTo_S48x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x16 .f32) (main_arg1 : IVec S2x3200000 32) (main_arg2 : FVec F S16x48 .f32) (main_arg3 : FVec F S48 .f32) (main_arg4 : FVec F S48x32 .f32) (main_arg5 : FVec F S32 .f32) (main_arg6 : FVec F S32x16 .f32) (main_arg7 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x48 .f32 := Host.absf main_arg2
  let main_cst_0 : FVec F S_ .f32 := constant S_ .f32 0x7F800000#32
  let main_v5 : FVec F S16x48 .f32 := broadcastInDim S16x48 ![] bcast_S_S16x48 main_cst_0
  let main_v6 : IVec S16x48 1 := cmpf .olt main_v4 main_v5
  let main_c_1 : IVec S_ 1 := constantI S_ 1 1#1
  let main_v7 : IVec S_ 1 := (fun x v => Host.reduce IntOp.andi x v reducesTo_S16x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x32 .f32 := Host.absf main_arg4
  let main_cst_4 : FVec F S_ .f32 := constant S_ .f32 0x7F800000#32
  let main_v15 : FVec F S48x32 .f32 := broadcastInDim S48x32 ![] bcast_S_S48x32 main_cst_4
  let main_v16 : IVec S48x32 1 := cmpf .olt main_v14 main_v15
  fn_part1 (F := F) main_arg5 main_arg6 main_arg7 main_v13 main_v16
-- ==== Kernel.lean ====
abbrev S100000x16 : Shape := ⟨2, ![100000, 16]⟩
abbrev S2x3200000 : Shape := ⟨2, ![2, 3200000]⟩
abbrev S16x48 : Shape := ⟨2, ![16, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S3300000x16 : Shape := ⟨2, ![3300000, 16]⟩
abbrev S1x48 : Shape := ⟨2, ![1, 48]⟩
abbrev S100000x32 : Shape := ⟨2, ![100000, 32]⟩
abbrev S5000x16 : Shape := ⟨2, ![5000, 16]⟩
abbrev S5000x32 : Shape := ⟨2, ![5000, 32]⟩
abbrev S5000x48 : Shape := ⟨2, ![5000, 48]⟩
abbrev S3300000x32 : Shape := ⟨2, ![3300000, 32]⟩
abbrev S1x32 : Shape := ⟨2, ![1, 32]⟩
abbrev S1x16 : Shape := ⟨2, ![1, 16]⟩

abbrev nBuf : Space → Nat
  | .hbm => 76
  | .vmem => 14
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x16, .f32⟩
  | .hbm, ⟨31, _⟩ => ⟨S100000x16, .f32⟩
  | .hbm, ⟨32, _⟩ => ⟨S100000x16, .bf16⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000x16, .bf16⟩
  | .hbm, ⟨42, _⟩ => ⟨S3300000x16, .f32⟩
  | .hbm, ⟨43, _⟩ => ⟨S_, .f32⟩
  | .hbm, ⟨44, _⟩ => ⟨S100000x16, .f32⟩
  | .hbm, ⟨45, _⟩ => ⟨S3300000x1, .i32⟩
  | .hbm, ⟨46, _⟩ => ⟨S100000x16, .f32⟩
  | .hbm, ⟨47, _⟩ => ⟨S100000x1, .f32⟩
  | .hbm, ⟨48, _⟩ => ⟨S100000x16, .f32⟩
  | .hbm, ⟨49, _⟩ => ⟨S100000x16, .f32⟩
  | .hbm, ⟨50, _⟩ => ⟨S1x48, .f32⟩
  | .hbm, ⟨51, _⟩ => ⟨S100000x32, .f32⟩
  | .hbm, ⟨52, _⟩ => ⟨S100000x1, .f32⟩
  | .hbm, ⟨53, _⟩ => ⟨S100000x32, .f32⟩
  | .hbm, ⟨54, _⟩ => ⟨S100000x32, .f32⟩
  | .hbm, ⟨55, _⟩ => ⟨S100000x32, .bf16⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x32, .bf16⟩
  | .hbm, ⟨65, _⟩ => ⟨S3300000x32, .f32⟩
  | .hbm, ⟨66, _⟩ => ⟨S_, .f32⟩
  | .hbm, ⟨67, _⟩ => ⟨S100000x32, .f32⟩
  | .hbm, ⟨68, _⟩ => ⟨S3300000x1, .i32⟩
  | .hbm, ⟨69, _⟩ => ⟨S100000x32, .f32⟩
  | .hbm, ⟨70, _⟩ => ⟨S100000x1, .f32⟩
  | .hbm, ⟨71, _⟩ => ⟨S100000x32, .f32⟩
  | .hbm, ⟨72, _⟩ => ⟨S100000x32, .f32⟩
  | .hbm, ⟨73, _⟩ => ⟨S1x32, .f32⟩
  | .hbm, ⟨74, _⟩ => ⟨S1x16, .f32⟩
  | .hbm, ⟨75, _⟩ => ⟨S100000x16, .f32⟩
  | .local _ .vmem, ⟨0, _⟩ => ⟨S5000x16, .f32⟩
  | .local _ .vmem, ⟨1, _⟩ => ⟨S5000x16, .f32⟩
  | .local _ .vmem, ⟨2, _⟩ => ⟨S16x48, .f32⟩
  | .local _ .vmem, ⟨3, _⟩ => ⟨S1x48, .f32⟩
  | .local _ .vmem, ⟨4, _⟩ => ⟨S48x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S1x32, .f32⟩
  | .local _ .vmem, ⟨10, _⟩ => ⟨S32x16, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bitsLt_bf16_f32 : FTy.bits .bf16 < FTy.bits .f32
  bcast_S_S100000x16 : S_.BroadcastsInDim S100000x16 (![] : Fin 0 → Fin S100000x16.rank)
  shapeCasts_S48_S1x48 : S48.ShapeCasts S1x48
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x48_S16x48_0_0 : ∀ a, (![0, 0] : Fin 2 → Nat) a + S16x48.size a ≤ S16x48.size a
  h_S16x48 : 0 < S16x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  inb_S48x32_S48x32_0_0 : ∀ a, (![0, 0] : Fin 2 → Nat) a + S48x32.size a ≤ S48x32.size a
  h_S48x32 : 0 < S48x32.numel
  inb_S5000x32_S5000x32_0_0 : ∀ a, (![0, 0] : Fin 2 → Nat) a + S5000x32.size a ≤ S5000x32.size a
  h_S5000x32 : 0 < S5000x32.numel
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  shapeCasts_S32_S1x32 : S32.ShapeCasts S1x32
  shapeCasts_S16_S1x16 : S16.ShapeCasts S1x16
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S3300000x1_S3300000_n_0_0_1_wf : ScatterDims.WF S100000 S3300000x1 S3300000 [] [0] [0] 1
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x48_S5000x48_1_0_0_1_n_n_wf : DotDims.WF S5000x16 S16x48 S5000x48 [1] [0] [0] [1] [] []
  dot_S5000x48_S48x32_S5000x32_1_0_0_1_n_n_wf : DotDims.WF S5000x48 S48x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x48.size a ≤ S16x48.size a
  hwx0_1 : ∀ i : grid0.Coords, EltTy.bits .f32 = 32 ∨ (Rect.block (s := S16x48) S16x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x48.size a ≤ S1x48.size a
  hwx0_2 : ∀ i : grid0.Coords, EltTy.bits .f32 = 32 ∨ (Rect.block (s := S1x48) S1x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x32.size a ≤ S48x32.size a
  hwx0_3 : ∀ i : grid0.Coords, EltTy.bits .f32 = 32 ∨ (Rect.block (s := S48x32) S48x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x48_S5000x48_1_0_0_1_n_n : DotDims S5000x16 S16x48 S5000x48 where
  lhsContracting := [1]
  rhsContracting := [0]
  lhsNonContracting := [0]
  rhsNonContracting := [1]
  lhsBatch := []
  rhsBatch := []
  wf := dot_S5000x16_S16x48_S5000x48_1_0_0_1_n_n_wf
def dot_S5000x48_S48x32_S5000x32_1_0_0_1_n_n : DotDims S5000x48 S48x32 S5000x32 where
  lhsContracting := [1]
  rhsContracting := [0]
  lhsNonContracting := [0]
  rhsNonContracting := [1]
  lhsBatch := []
  rhsBatch := []
  wf := dot_S5000x48_S48x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_v32) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S48x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S5000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v52) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x48 : Shape := ⟨2, ![16, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000x48 : Shape := ⟨2, ![100000, 48]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x48 : Shape := ⟨2, ![3300000, 48]⟩
abbrev S1x48 : Shape := ⟨2, ![1, 48]⟩
abbrev S100000x32 : Shape := ⟨2, ![100000, 32]⟩
abbrev S3300000x32 : Shape := ⟨2, ![3300000, 32]⟩
abbrev S1x32 : Shape := ⟨2, ![1, 32]⟩
abbrev S1x16 : Shape := ⟨2, ![1, 16]⟩

abbrev nBuf : Space → Nat
  | .hbm => 134
  | .vmem => 0
  | .smem => 0
  | _ => 0

abbrev hbmTy0_0 (i : Nat) : BufTy := match i % 128 with
  | 0 => ⟨S100000x16, .f32⟩
  | 1 => ⟨S2x3200000, .i32⟩
  | 2 => ⟨S16x48, .f32⟩
  | 3 => ⟨S48, .f32⟩
  | 4 => ⟨S48x32, .f32⟩
  | 5 => ⟨S32, .f32⟩
  | 6 => ⟨S32x16, .f32⟩
  | 7 => ⟨S16, .f32⟩
  | 8 => ⟨S1x3200000, .i32⟩
  | 9 => ⟨S3200000, .i32⟩
  | 10 => ⟨S1x3200000, .i32⟩
  | 11 => ⟨S3200000, .i32⟩
  | 12 => ⟨S100000x48, .f32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x48, .f32⟩
  | 58 => ⟨S3300000x1, .f32⟩
  | 59 => ⟨S3300000x48, .f32⟩
  | 60 => ⟨S3300000x48, .f32⟩
  | 61 => ⟨S_, .f32⟩
  | 62 => ⟨S100000x48, .f32⟩
  | 63 => ⟨S3300000x1, .i32⟩
  | 64 => ⟨S100000x48, .f32⟩
  | 65 => ⟨S1x48, .f32⟩
  | 66 => ⟨S100000x48, .f32⟩
  | 67 => ⟨S100000x48, .f32⟩
  | 68 => ⟨S_, .f32⟩
  | 69 => ⟨S100000x48, .f32⟩
  | 70 => ⟨S100000x48, .f32⟩
  | 71 => ⟨S100000x32, .f32⟩
  | 72 => ⟨S100000, .i32⟩
  | 73 => ⟨S3300000, .i32⟩
  | 74 => ⟨S3300000, .i32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x32, .f32⟩
  | 117 => ⟨S3300000x1, .f32⟩
  | 118 => ⟨S3300000x32, .f32⟩
  | 119 => ⟨S3300000x32, .f32⟩
  | 120 => ⟨S_, .f32⟩
  | 121 => ⟨S100000x32, .f32⟩
  | 122 => ⟨S3300000x1, .i32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x16, .f32⟩

abbrev hbmTy0_1 (i : Nat) : BufTy := match i % 128 with
  | 0 => ⟨S100000x32, .f32⟩
  | 1 => ⟨S100000x32, .f32⟩
  | 2 => ⟨S100000x16, .f32⟩
  | 3 => ⟨S1x16, .f32⟩
  | 4 => ⟨S100000x16, .f32⟩
  | 5 => ⟨S100000x16, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x48_0_1 : S3300000x1.BroadcastsInDim S3300000x48 (![0, 1] : Fin 2 → Fin S3300000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x16_S16x48_S100000x48_1_0_0_1_n_n_wf : DotDims.WF S100000x16 S16x48 S100000x48 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x48_S3300000x1_S3300000x48_1_0_n_n_0_1_148_wf : GatherDims.WF S100000x48 S3300000x1 S3300000x48 [1] [0] [] [0] [] 1 ![1, 48]
  scatter_S100000x48_S3300000x1_S3300000x48_1_0_0_1_wf : ScatterDims.WF S100000x48 S3300000x1 S3300000x48 [1] [0] [0] 1
  dot_S100000x48_S48x32_S100000x32_1_0_0_1_n_n_wf : DotDims.WF S100000x48 S48x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []

variable [Facts₀]

def dot_S100000x16_S16x48_S100000x48_1_0_0_1_n_n : DotDims S100000x16 S16x48 S100000x48 where
  lhsContracting := [1]
  rhsContracting := [0]
  lhsNonContracting := [0]
  rhsNonContracting := [1]
  lhsBatch := []
  rhsBatch := []
  wf := dot_S100000x16_S16x48_S100000x48_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x48_S3300000x1_S3300000x48_1_0_n_n_0_1_148 : GatherDims S100000x48 S3300000x1 S3300000x48 where
  offsetDims := [1]
  collapsedSliceDims := [0]
  operandBatchingDims := []
  startIndicesBatchingDims := []
  startIndexMap := [0]
  indexVectorDim := 1
  sliceSizes := ![1, 48]
  wf := gather_S100000x48_S3300000x1_S3300000x48_1_0_n_n_0_1_148_wf
def scatter_S100000x48_S3300000x1_S3300000x48_1_0_0_1 : ScatterDims S100000x48 S3300000x1 S3300000x48 where
  updateWindowDims := [1]
  insertedWindowDims := [0]
  scatterDimsToOperandDims := [0]
  indexVectorDim := 1
  wf := scatter_S100000x48_S3300000x1_S3300000x48_1_0_0_1_wf
def dot_S100000x48_S48x32_S100000x32_1_0_0_1_n_n : DotDims S100000x48 S48x32 S100000x32 where
  lhsContracting := [1]
  rhsContracting := [0]
  lhsNonContracting := [0]
  rhsNonContracting := [1]
  lhsBatch := []
  rhsBatch := []
  wf := dot_S100000x48_S48x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KRun.lean ====
/-
  The kernel's run with its result array named.

  The run of the kernel's entry function, from any memory with zero counters, terminates with every unscoped buffer
  of the TensorCore at the contents the fold through the function's segments gives it (`Gen.W6`). Read at the result
  array `main_v55` and at the eight argument arrays, this is the run's post; the fold at the result (and at the first
  region's output `main_v34`) opens one level: each is its region's write-backs folded over the region's grid.
-/
import proofs.«147672_j1675037246076_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second region's output window is the result array. -/
theorem arrRef1_4 : Pipeline.arrRef spec1 4 = main_v55 := rfl

/-- The first region's output window is the array `main_v34`. -/
theorem arrRef0_4 : Pipeline.arrRef spec0 4 = main_v34 := rfl

/-- The result array at the last boundary: the second region's write-backs folded over its whole grid, from the
    contents the region is entered with. -/
theorem W6_result (c : Dev nD) :
    Gen.W6 m ρ c (Proc.devRef .tc main_v55) = (Gen.dat1 (Gen.V5 m ρ) c).arrAt 4 cfg1.N :=
  Gen.W6_arr m ρ c 4

/-- The first region's output array at the region's exit: its write-backs folded over its whole grid, from the
    contents the region is entered with. -/
theorem W4_result (c : Dev nD) :
    Gen.W4 m ρ c (Proc.devRef .tc main_v34) = (Gen.dat0 (Gen.V3 m ρ) c).arrAt 4 cfg0.N :=
  Gen.W4_arr m ρ c 4

set_option backward.isDefEq.respectTransparency.types false in
/-- THE RUN, with the result: at the compiled mesh, from any memory with zero counters, every weakly fair execution of
    the entry function on the TensorCores terminates, nothing faulting, and every final state has the result array at
    the last boundary's contents and the argument arrays as launched. -/
theorem run_value : θ_run defs (onTc (τ := τ) (main (F := F))) ⟨m, fun _ => 0, ρ⟩ (fun r => ∀ c : Dev nD,
      r.2.mem ((c.tc : Thread nD τ).loc main_v55) = Gen.W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v55 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KV

end
-- ==== Proof.Dense.lean ====
/-
  The two row-wise dense stages of the two-layer graph convolution, as functions on the extended reals.

  Stage 0 maps a row `a[v, ·]` of width 16 to `relu(a[v, ·] · W1 + b1) · W2` (width 32); stage 1 maps a row
  `a[v, ·]` of width 32 to `relu(a[v, ·] + b2) · Wfc + bfc` (width 16). Each entry of the result depends on one
  row of `a` only, so a tiling of the rows computes the same array.
-/
import Idealize.ShloMosaic.PureOps.Ideal
import Idealize.ShloMosaic.Lib.ValueIdx

noncomputable section

open scoped BigOperators

namespace Cert.Gcn

open Idealize.ShloMosaic Idealize.ShloMosaic.ValueIdx

/-- `relu(a · W1 + b1) · W2`, entry `(v, c)`: the sum over the 48 hidden units `k` of
    `max (∑ j, a[v, j] · W1[j, k] + b1[k]) 0 · W2[k, c]`. -/
def dense0 (a : (⟨2, ![100000, 16]⟩ : Shape).Idx → EReal) (w1 : (⟨2, ![16, 48]⟩ : Shape).Idx → EReal)
    (b1 : (⟨2, ![1, 48]⟩ : Shape).Idx → EReal) (w2 : (⟨2, ![48, 32]⟩ : Shape).Idx → EReal) :
    (⟨2, ![100000, 32]⟩ : Shape).Idx → EReal :=
  fun i => ∑ k : Fin 48,
    max ((∑ j : Fin 16, a (ix2 (i 0) j) * w1 (ix2 j k)) + b1 (ix2 (0 : Fin 1) k)) 0 * w2 (ix2 k (i 1))

/-- `relu(a + b2) · Wfc + bfc`, entry `(v, c)`: the sum over the 32 units `k` of
    `max (a[v, k] + b2[k]) 0 · Wfc[k, c]`, plus `bfc[c]`. -/
def dense1 (a : (⟨2, ![100000, 32]⟩ : Shape).Idx → EReal) (b2 : (⟨2, ![1, 32]⟩ : Shape).Idx → EReal)
    (wfc : (⟨2, ![32, 16]⟩ : Shape).Idx → EReal) (bfc : (⟨2, ![1, 16]⟩ : Shape).Idx → EReal) :
    (⟨2, ![100000, 16]⟩ : Shape).Idx → EReal :=
  fun i => (∑ k : Fin 32, max (a (ix2 (i 0) k) + b2 (ix2 (0 : Fin 1) k)) 0 * wfc (ix2 k (i 1)))
    + bfc (ix2 (0 : Fin 1) (i 1))

end Cert.Gcn

end
-- ==== Proof.KRegion0.lean ====
/-
  The first dense stage of the two-layer graph convolution, on the kernel's side: the first region's output array is
  `relu(a · W1 + b1) · W2` of the region's four input arrays, row by row.

  The region runs over 20 row blocks of 5000 rows. At a grid point `t` its body reads rows `5000 t … 5000 t + 4999` of
  `a` and the whole of `W1`, `b1`, `W2`, and writes the same rows of the output. An output entry `(v, c)` depends on
  row `v` of `a` only, so what point `t` writes back is block `t` of ONE function of the whole arrays
  (`Cert.Gcn.dense0`), and the 20 blocks cover the 100000 rows: the array after the region is that function.
-/
import proofs.«147672_j1675037246076_2_alg».proof.Proof.Gen.KernelIdeal.Frame
import proofs.«147672_j1675037246076_2_alg».proof.Proof.Dense
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat)

/-! ## The two matrix products of the body, read at an index -/

/-- The product `[5000, 16] × [16, 48]`: rows of the block against `W1`. -/
abbrev D1 := dot_S5000x16_S16x48_S5000x48_1_0_0_1_n_n
/-- The product `[5000, 48] × [48, 32]`: the hidden rows against `W2`. -/
abbrev D2 := dot_S5000x48_S48x32_S5000x32_1_0_0_1_n_n

theorem lhs1_0 (i : S5000x48.Idx) (q : D1.contr.Idx) : (D1.lhsIdx i q 0).val = (i 0).val := by
  unfold DotDims.lhsIdx
  rw [dif_neg (show ¬(0 : Fin S5000x16.rank) ∈ D1.lhsBatch by decide), dif_pos (show (0 : Fin S5000x16.rank) ∈ D1.lhsNonContracting by decide)]
  rfl
theorem lhs1_1 (i : S5000x48.Idx) (q : D1.contr.Idx) : (D1.lhsIdx i q 1).val = (q ⟨0, by decide⟩).val :=
  D1.lhsIdx_val_of_single rfl i q
theorem rhs1_0 (i : S5000x48.Idx) (q : D1.contr.Idx) : (D1.rhsIdx i q 0).val = (q ⟨0, by decide⟩).val :=
  D1.rhsIdx_val_of_single rfl i q
theorem rhs1_1 (i : S5000x48.Idx) (q : D1.contr.Idx) : (D1.rhsIdx i q 1).val = (i 1).val := by
  unfold DotDims.rhsIdx
  rw [dif_neg (show ¬(1 : Fin S16x48.rank) ∈ D1.rhsBatch by decide), dif_pos (show (1 : Fin S16x48.rank) ∈ D1.rhsNonContracting by decide)]
  rfl

/-- The first product into a zero accumulator, at `(r, k)`: the sum over the 16 input features `j` of
    `a[r, j] · b[j, k]`. -/
theorem mm1_apply {φ₁ φ₂ : FTy} (a : FVec Ideal S5000x16 φ₁) (b : FVec Ideal S16x48 φ₂) (i : S5000x48.Idx) :
    matmul D1 none a b (constant S5000x48 .f32 0x00000000#32) i = ∑ k : Fin 16, a (ix2 (i 0) k) * b (ix2 k (i 1)) := by
  simp only [matmul]
  rw [Ideal.matmul_constant_zero_apply, ← Equiv.sum_comp (contrEquiv1 D1 16 rfl rfl).symm]
  refine Finset.sum_congr rfl fun k _ => ?_
  have hk := contrEquiv1_symm_val D1 16 rfl rfl k
  have el : D1.lhsIdx i ((contrEquiv1 D1 16 rfl rfl).symm k) = ix2 (i 0) k := funext fun a => Fin.ext (by
    match a with
    | ⟨0, _⟩ => exact lhs1_0 _ _
    | ⟨1, _⟩ => exact (lhs1_1 _ _).trans hk)
  have er : D1.rhsIdx i ((contrEquiv1 D1 16 rfl rfl).symm k) = ix2 k (i 1) := funext fun a => Fin.ext (by
    match a with
    | ⟨0, _⟩ => exact (rhs1_0 _ _).trans hk
    | ⟨1, _⟩ => exact rhs1_1 _ _)
  exact congr (congrArg _ (congrArg a el)) (congrArg b er)

theorem lhs2_0 (i : S5000x32.Idx) (q : D2.contr.Idx) : (D2.lhsIdx i q 0).val = (i 0).val := by
  unfold DotDims.lhsIdx
  rw [dif_neg (show ¬(0 : Fin S5000x48.rank) ∈ D2.lhsBatch by decide), dif_pos (show (0 : Fin S5000x48.rank) ∈ D2.lhsNonContracting by decide)]
  rfl
theorem lhs2_1 (i : S5000x32.Idx) (q : D2.contr.Idx) : (D2.lhsIdx i q 1).val = (q ⟨0, by decide⟩).val :=
  D2.lhsIdx_val_of_single rfl i q
theorem rhs2_0 (i : S5000x32.Idx) (q : D2.contr.Idx) : (D2.rhsIdx i q 0).val = (q ⟨0, by decide⟩).val :=
  D2.rhsIdx_val_of_single rfl i q
theorem rhs2_1 (i : S5000x32.Idx) (q : D2.contr.Idx) : (D2.rhsIdx i q 1).val = (i 1).val := by
  unfold DotDims.rhsIdx
  rw [dif_neg (show ¬(1 : Fin S48x32.rank) ∈ D2.rhsBatch by decide), dif_pos (show (1 : Fin S48x32.rank) ∈ D2.rhsNonContracting by decide)]
  rfl

/-- The second product into a zero accumulator, at `(r, c)`: the sum over the 48 hidden units `k` of
    `a[r, k] · b[k, c]`. -/
theorem mm2_apply {φ₁ φ₂ : FTy} (a : FVec Ideal S5000x48 φ₁) (b : FVec Ideal S48x32 φ₂) (i : S5000x32.Idx) :
    matmul D2 none a b (constant S5000x32 .f32 0x00000000#32) i = ∑ k : Fin 48, a (ix2 (i 0) k) * b (ix2 k (i 1)) := by
  simp only [matmul]
  rw [Ideal.matmul_constant_zero_apply, ← Equiv.sum_comp (contrEquiv1 D2 48 rfl rfl).symm]
  refine Finset.sum_congr rfl fun k _ => ?_
  have hk := contrEquiv1_symm_val D2 48 rfl rfl k
  have el : D2.lhsIdx i ((contrEquiv1 D2 48 rfl rfl).symm k) = ix2 (i 0) k := funext fun a => Fin.ext (by
    match a with
    | ⟨0, _⟩ => exact lhs2_0 _ _
    | ⟨1, _⟩ => exact (lhs2_1 _ _).trans hk)
  have er : D2.rhsIdx i ((contrEquiv1 D2 48 rfl rfl).symm k) = ix2 k (i 1) := funext fun a => Fin.ext (by
    match a with
    | ⟨0, _⟩ => exact (rhs2_0 _ _).trans hk
    | ⟨1, _⟩ => exact rhs2_1 _ _)
  exact congr (congrArg _ (congrArg a el)) (congrArg b er)

/-! ## The body's result at an index -/

/-- What the body stores, at row `p` and column `q` of the block: the format changes are the identity on the extended
    reals, the one-row bias is broadcast down the rows, the zero word is `0`, and each product is its sum. -/
theorem pay0_apply (x0 : Vec Ideal S5000x16 .f32) (x1 : Vec Ideal S16x48 .f32) (x2 : Vec Ideal S1x48 .f32) (x3 : Vec Ideal S48x32 .f32)
    (p : Fin 5000) (q : Fin 32) :
    k0_pay1 (F := Ideal) x0 x1 x2 x3 (ix2 p q)
      = ∑ k : Fin 48, max ((∑ j : Fin 16, x0 (ix2 p j) * x1 (ix2 j k)) + x2 (ix2 (0 : Fin 1) k)) 0 * x3 (ix2 k q) := by
  unfold k0_pay1
  refine (mm2_apply _ _ _).trans ?_
  refine Finset.sum_congr rfl fun k _ => ?_
  show max ((matmul (F := Ideal) D1 none (truncf (F := Ideal) .bf16 (shapeCast S5000x16 x0 shapeCasts_S5000x16_S5000x16) bitsLt_bf16_f32) (truncf (F := Ideal) .bf16 x1 bitsLt_bf16_f32) (constant (F := Ideal) S5000x48 .f32 0x00000000#32) (ix2 p k) : EReal)
        + broadcastTo S5000x48 (shapeCast S1x48 x2 shapeCasts_S1x48_S1x48) broadcasts_S1x48_S5000x48 (ix2 p k)) (Ideal.ofBits .f32 0x00000000#32) * x3 (ix2 k q) = _
  rw [mm1_apply, broadcastTo_1b_ab_apply, shapeCast_self, shapeCast_self, Ideal.ofBits_zero_f32]
  rfl

/-- The same at any index of the block. -/
theorem pay0_apply' (x0 : Vec Ideal S5000x16 .f32) (x1 : Vec Ideal S16x48 .f32) (x2 : Vec Ideal S1x48 .f32) (x3 : Vec Ideal S48x32 .f32)
    (y : S5000x32.Idx) :
    k0_pay1 (F := Ideal) x0 x1 x2 x3 y
      = ∑ k : Fin 48, max ((∑ j : Fin 16, x0 (ix2 (y 0) j) * x1 (ix2 j k)) + x2 (ix2 (0 : Fin 1) k)) 0 * x3 (ix2 k (y 1)) := by
  obtain ⟨p, q, rfl⟩ : ∃ p q, y = ix2 p q := ⟨y 0, y 1, eq_ix2 y⟩
  exact pay0_apply x0 x1 x2 x3 p q

/-! ## From the blocks to the array -/

theorem hz0 : (![0, 0] : Fin 2 → Nat) = fun _ => 0 := funext fun a => by fin_cases a <;> rfl

/-- The index maps over the 20 grid points: the row-blocked input and the output are at block `(t, 0)`, the three
    whole-array inputs at block `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The region's four input arrays as it finds them: the aggregated features `a`, and `W1`, `b1`, `W2`. -/
abbrev in0_a (c : Dev nD) : (⟨2, ![100000, 16]⟩ : Shape).Idx → EReal := V c (Pipeline.arrRef spec0 0)
abbrev in0_w1 (c : Dev nD) : (⟨2, ![16, 48]⟩ : Shape).Idx → EReal := V c (Pipeline.arrRef spec0 1)
abbrev in0_b1 (c : Dev nD) : (⟨2, ![1, 48]⟩ : Shape).Idx → EReal := V c (Pipeline.arrRef spec0 2)
abbrev in0_w2 (c : Dev nD) : (⟨2, ![48, 32]⟩ : Shape).Idx → EReal := V c (Pipeline.arrRef spec0 3)

set_option maxHeartbeats 400000 in
/-- What grid point `t` writes back is block `t` of `dense0` of the whole input arrays: the body's result at a block
    index `y` reads row `y 0` of `a`'s block `t`, which is row `5000 t + y 0` of `a`, the row of the output it lands on. -/
theorem flushed0_eq (c : Dev nD) (t : Fin cfg0.N) :
    (Gen.dat0 (F := Ideal) V c).flushed 4 t
      = ((cfg0.win 4).blk t).view.read (Elt Ideal) (Cert.Gcn.dense0 (in0_a V c) (in0_w1 V c) (in0_b1 V c) (in0_w2 V c)) := by
  show (cfg0.win 4).cut (grid0.coords t) ((Gen.dat0 V c).after 4 t) = _
  rw [Gen.after0_4]
  unfold Gen.out0_4
  rw [View.canon_unit_zero hz0]
  simp only [View.ld_unit_zero (S := S5000x16) hz0, View.ld_unit_zero (S := S16x48) hz0, View.ld_unit_zero (S := S1x48) hz0, View.ld_unit_zero (S := S48x32) hz0]
  obtain ⟨e00, e01, e10, e11, e20, e21, e30, e31, e40, e41⟩ := idx_facts0 t
  funext y
  show k0_pay1 (F := Ideal) (iblk0 V c 0 t) (iblk0 V c 1 t) (iblk0 V c 2 t) (iblk0 V c 3 t) y
      = Cert.Gcn.dense0 (in0_a V c) (in0_w1 V c) (in0_b1 V c) (in0_w2 V c) (((cfg0.win 4).blk t).view.emb y)
  refine (pay0_apply' _ _ _ _ y).trans ?_
  unfold Cert.Gcn.dense0
  have h0 : ∀ j : Fin 16, iblk0 V c 0 t (ix2 (y 0) j) = in0_a V c (ix2 (((cfg0.win 4).blk t).view.emb y 0) j) := fun j => by
    show in0_a V c (((cfg0.win 0).blk t).view.emb (ix2 (y 0) j)) = _
    refine congrArg (in0_a V c) (funext fun a => Fin.ext ?_)
    match a with
    | ⟨0, _⟩ => show win0_0.index t (0 : Fin 2) * 5000 + 1 * (y 0).val = win0_4.index t (0 : Fin 2) * 5000 + 1 * (y 0).val; omega
    | ⟨1, _⟩ => show win0_0.index t (1 : Fin 2) * 16 + 1 * j.val = j.val; omega
  have h1 : ∀ (j : Fin 16) (k : Fin 48), iblk0 V c 1 t (ix2 j k) = in0_w1 V c (ix2 j k) := fun j k => by
    show in0_w1 V c (((cfg0.win 1).blk t).view.emb (ix2 j k)) = _
    refine congrArg (in0_w1 V c) (funext fun a => Fin.ext ?_)
    match a with
    | ⟨0, _⟩ => show win0_1.index t (0 : Fin 2) * 16 + 1 * j.val = j.val; omega
    | ⟨1, _⟩ => show win0_1.index t (1 : Fin 2) * 48 + 1 * k.val = k.val; omega
  have h2 : ∀ (k : Fin 48), iblk0 V c 2 t (ix2 (0 : Fin 1) k) = in0_b1 V c (ix2 (0 : Fin 1) k) := fun k => by
    show in0_b1 V c (((cfg0.win 2).blk t).view.emb (ix2 (0 : Fin 1) k)) = _
    refine congrArg (in0_b1 V c) (funext fun a => Fin.ext ?_)
    match a with
    | ⟨0, _⟩ => show win0_2.index t (0 : Fin 2) * 1 + 1 * 0 = 0; omega
    | ⟨1, _⟩ => show win0_2.index t (1 : Fin 2) * 48 + 1 * k.val = k.val; omega
  have h3 : ∀ (k : Fin 48), iblk0 V c 3 t (ix2 k (y 1)) = in0_w2 V c (ix2 k (((cfg0.win 4).blk t).view.emb y 1)) := fun k => by
    show in0_w2 V c (((cfg0.win 3).blk t).view.emb (ix2 k (y 1))) = _
    refine congrArg (in0_w2 V c) (funext fun a => Fin.ext ?_)
    match a with
    | ⟨0, _⟩ => show win0_3.index t (0 : Fin 2) * 48 + 1 * k.val = k.val; omega
    | ⟨1, _⟩ => show win0_3.index t (1 : Fin 2) * 32 + 1 * (y 1).val = win0_4.index t (1 : Fin 2) * 32 + 1 * (y 1).val; omega
  refine Finset.sum_congr rfl fun k _ => ?_
  rw [h2 k, h3 k]
  refine congrArg (fun z => max (z + _) 0 * _) (Finset.sum_congr rfl fun j _ => ?_)
  rw [h0 j, h1 j k]

/-- An index of the output array is in point `t`'s block iff each coordinate is in the block's range on its axis. -/
theorem mem_blk0 (t : Fin cfg0.N) (i : S100000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v34).slice (win0_4.rect t)).set ↔ _
  rw [View.set_slice_whole, Rect.mem_set_unit]
  exact Iff.rfl

/-- Row `r` of the output is in the block of point `r / 5000`, which writes back: the 20 blocks cover the array. -/
theorem cover0 (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  have hN : cfg0.N = 20 := by decide
  have ht : (i 0).val / 5000 < cfg0.N := by rw [hN]; omega
  refine ⟨⟨(i 0).val / 5000, ht⟩, flush0_4 _, ?_⟩
  rw [mem_blk0]
  obtain ⟨-, -, -, -, -, -, -, -, e40, e41⟩ := idx_facts0 ⟨(i 0).val / 5000, ht⟩
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, ht⟩ (1 : Fin 2) * 32 ≤ (i 1).val ∧ (i 1).val < win0_4.index ⟨(i 0).val / 5000, ht⟩ (1 : Fin 2) * 32 + 32
    rw [e41]; omega

/-- THE FIRST REGION'S OUTPUT ARRAY after the region, for any contents `V` it is entered with: `relu(a · W1 + b1) · W2`
    of its four input arrays. -/
theorem final0 (c : Dev nD) : (Gen.dat0 (F := Ideal) V c).arrAt 4 cfg0.N
      = Cert.Gcn.dense0 (V c (Pipeline.arrRef spec0 0) : (⟨2, ![100000, 16]⟩ : Shape).Idx → EReal)
          (V c (Pipeline.arrRef spec0 1) : (⟨2, ![16, 48]⟩ : Shape).Idx → EReal)
          (V c (Pipeline.arrRef spec0 2) : (⟨2, ![1, 48]⟩ : Shape).Idx → EReal)
          (V c (Pipeline.arrRef spec0 3) : (⟨2, ![48, 32]⟩ : Shape).Idx → EReal) :=
  (Gen.dat0 V c).arrAt_eq_of_cover 4 _ (fun t _ => flushed0_eq V c t) cover0

end Cert.KernelIdeal.KV

end
-- ==== Proof.KRegion1.lean ====
/-
  The second dense stage of the two-layer graph convolution, on the kernel's side: the second region's output array
  is `relu(a + b2) · Wfc + bfc` of the region's four input arrays, row by row.

  The region runs over 20 row blocks of 5000 rows. At a grid point `t` its body reads rows `5000 t … 5000 t + 4999` of
  `a` and the whole of `b2`, `Wfc`, `bfc`, and writes the same rows of the output. An output entry `(v, c)` depends on
  row `v` of `a` only, so what point `t` writes back is block `t` of ONE function of the whole arrays
  (`Cert.Gcn.dense1`), and the 20 blocks cover the 100000 rows: the array after the region is that function.
-/
import proofs.«147672_j1675037246076_2_alg».proof.Proof.Gen.KernelIdeal.Frame
import proofs.«147672_j1675037246076_2_alg».proof.Proof.Dense
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat)

/-! ## The matrix product of the body, read at an index -/

/-- The product `[5000, 32] × [32, 16]`: the rectified rows against `Wfc`. -/
abbrev D3 := dot_S5000x32_S32x16_S5000x16_1_0_0_1_n_n

theorem lhs3_0 (i : S5000x16.Idx) (q : D3.contr.Idx) : (D3.lhsIdx i q 0).val = (i 0).val := by
  unfold DotDims.lhsIdx
  rw [dif_neg (show ¬(0 : Fin S5000x32.rank) ∈ D3.lhsBatch by decide), dif_pos (show (0 : Fin S5000x32.rank) ∈ D3.lhsNonContracting by decide)]
  rfl
theorem lhs3_1 (i : S5000x16.Idx) (q : D3.contr.Idx) : (D3.lhsIdx i q 1).val = (q ⟨0, by decide⟩).val :=
  D3.lhsIdx_val_of_single rfl i q
theorem rhs3_0 (i : S5000x16.Idx) (q : D3.contr.Idx) : (D3.rhsIdx i q 0).val = (q ⟨0, by decide⟩).val :=
  D3.rhsIdx_val_of_single rfl i q
theorem rhs3_1 (i : S5000x16.Idx) (q : D3.contr.Idx) : (D3.rhsIdx i q 1).val = (i 1).val := by
  unfold DotDims.rhsIdx
  rw [dif_neg (show ¬(1 : Fin S32x16.rank) ∈ D3.rhsBatch by decide), dif_pos (show (1 : Fin S32x16.rank) ∈ D3.rhsNonContracting by decide)]
  rfl

/-- The product into a zero accumulator, at `(r, c)`: the sum over the 32 units `k` of `a[r, k] · b[k, c]`. -/
theorem mm3_apply {φ₁ φ₂ : FTy} (a : FVec Ideal S5000x32 φ₁) (b : FVec Ideal S32x16 φ₂) (i : S5000x16.Idx) :
    matmul D3 none a b (constant S5000x16 .f32 0x00000000#32) i = ∑ k : Fin 32, a (ix2 (i 0) k) * b (ix2 k (i 1)) := by
  simp only [matmul]
  rw [Ideal.matmul_constant_zero_apply, ← Equiv.sum_comp (contrEquiv1 D3 32 rfl rfl).symm]
  refine Finset.sum_congr rfl fun k _ => ?_
  have hk := contrEquiv1_symm_val D3 32 rfl rfl k
  have el : D3.lhsIdx i ((contrEquiv1 D3 32 rfl rfl).symm k) = ix2 (i 0) k := funext fun a => Fin.ext (by
    match a with
    | ⟨0, _⟩ => exact lhs3_0 _ _
    | ⟨1, _⟩ => exact (lhs3_1 _ _).trans hk)
  have er : D3.rhsIdx i ((contrEquiv1 D3 32 rfl rfl).symm k) = ix2 k (i 1) := funext fun a => Fin.ext (by
    match a with
    | ⟨0, _⟩ => exact (rhs3_0 _ _).trans hk
    | ⟨1, _⟩ => exact rhs3_1 _ _)
  exact congr (congrArg _ (congrArg a el)) (congrArg b er)

/-! ## The body's result at an index -/

/-- What the body stores, at row `p` and column `q` of the block: the format changes are the identity on the extended
    reals, each one-row bias is broadcast down the rows, the zero word is `0`, and the product is its sum. -/
theorem pay1_apply (x0 : Vec Ideal S5000x32 .f32) (x1 : Vec Ideal S1x32 .f32) (x2 : Vec Ideal S32x16 .f32) (x3 : Vec Ideal S1x16 .f32)
    (p : Fin 5000) (q : Fin 16) :
    k1_pay1 (F := Ideal) x0 x1 x2 x3 (ix2 p q)
      = (∑ k : Fin 32, max (x0 (ix2 p k) + x1 (ix2 (0 : Fin 1) k)) 0 * x2 (ix2 k q)) + x3 (ix2 (0 : Fin 1) q) := by
  unfold k1_pay1
  show (matmul (F := Ideal) D3 none
        (truncf (F := Ideal) .bf16 (maximumf (F := Ideal) (addf (F := Ideal) (shapeCast S5000x32 x0 shapeCasts_S5000x32_S5000x32)
          (broadcastTo S5000x32 (shapeCast S1x32 x1 shapeCasts_S1x32_S1x32) broadcasts_S1x32_S5000x32))
          (broadcast S5000x32 (FloatOps.ofBits (F := Ideal) .f32 0x00000000#32))) bitsLt_bf16_f32)
        (truncf (F := Ideal) .bf16 x2 bitsLt_bf16_f32) (constant (F := Ideal) S5000x16 .f32 0x00000000#32) (ix2 p q) : EReal)
      + broadcastTo S5000x16 (shapeCast S1x16 x3 shapeCasts_S1x16_S1x16) broadcasts_S1x16_S5000x16 (ix2 p q) = _
  rw [mm3_apply, broadcastTo_1b_ab_apply]
  simp only [shapeCast_self]
  refine congrArg (· + x3 (ix2 (0 : Fin 1) q)) (Finset.sum_congr rfl fun k _ => ?_)
  show max ((x0 (ix2 p k) : EReal) + broadcastTo S5000x32 x1 broadcasts_S1x32_S5000x32 (ix2 p k)) (Ideal.ofBits .f32 0x00000000#32) * x2 (ix2 k q) = _
  rw [broadcastTo_1b_ab_apply, Ideal.ofBits_zero_f32]

/-- The same at any index of the block. -/
theorem pay1_apply' (x0 : Vec Ideal S5000x32 .f32) (x1 : Vec Ideal S1x32 .f32) (x2 : Vec Ideal S32x16 .f32) (x3 : Vec Ideal S1x16 .f32)
    (y : S5000x16.Idx) :
    k1_pay1 (F := Ideal) x0 x1 x2 x3 y
      = (∑ k : Fin 32, max (x0 (ix2 (y 0) k) + x1 (ix2 (0 : Fin 1) k)) 0 * x2 (ix2 k (y 1))) + x3 (ix2 (0 : Fin 1) (y 1)) := by
  obtain ⟨p, q, rfl⟩ : ∃ p q, y = ix2 p q := ⟨y 0, y 1, eq_ix2 y⟩
  exact pay1_apply x0 x1 x2 x3 p q

/-! ## From the blocks to the array -/

theorem hz1 : (![0, 0] : Fin 2 → Nat) = fun _ => 0 := funext fun a => by fin_cases a <;> rfl

/-- The index maps over the 20 grid points: the row-blocked input and the output are at block `(t, 0)`, the three
    whole-array inputs at block `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The region's four input arrays as it finds them: the aggregated hidden features `a`, and `b2`, `Wfc`, `bfc`. -/
abbrev in1_a (c : Dev nD) : (⟨2, ![100000, 32]⟩ : Shape).Idx → EReal := V c (Pipeline.arrRef spec1 0)
abbrev in1_b2 (c : Dev nD) : (⟨2, ![1, 32]⟩ : Shape).Idx → EReal := V c (Pipeline.arrRef spec1 1)
abbrev in1_wfc (c : Dev nD) : (⟨2, ![32, 16]⟩ : Shape).Idx → EReal := V c (Pipeline.arrRef spec1 2)
abbrev in1_bfc (c : Dev nD) : (⟨2, ![1, 16]⟩ : Shape).Idx → EReal := V c (Pipeline.arrRef spec1 3)

set_option maxHeartbeats 400000 in
/-- What grid point `t` writes back is block `t` of `dense1` of the whole input arrays: the body's result at a block
    index `y` reads row `y 0` of `a`'s block `t`, which is row `5000 t + y 0` of `a`, the row of the output it lands on. -/
theorem flushed1_eq (c : Dev nD) (t : Fin cfg1.N) :
    (Gen.dat1 (F := Ideal) V c).flushed 4 t
      = ((cfg1.win 4).blk t).view.read (Elt Ideal) (Cert.Gcn.dense1 (in1_a V c) (in1_b2 V c) (in1_wfc V c) (in1_bfc V c)) := by
  show (cfg1.win 4).cut (grid1.coords t) ((Gen.dat1 V c).after 4 t) = _
  rw [Gen.after1_4]
  unfold Gen.out1_4
  rw [View.canon_unit_zero hz1]
  simp only [View.ld_unit_zero (S := S5000x32) hz1, View.ld_unit_zero (S := S1x32) hz1, View.ld_unit_zero (S := S32x16) hz1, View.ld_unit_zero (S := S1x16) hz1]
  obtain ⟨e00, e01, e10, e11, e20, e21, e30, e31, e40, e41⟩ := idx_facts1 t
  funext y
  show k1_pay1 (F := Ideal) (iblk1 V c 0 t) (iblk1 V c 1 t) (iblk1 V c 2 t) (iblk1 V c 3 t) y
      = Cert.Gcn.dense1 (in1_a V c) (in1_b2 V c) (in1_wfc V c) (in1_bfc V c) (((cfg1.win 4).blk t).view.emb y)
  refine (pay1_apply' _ _ _ _ y).trans ?_
  unfold Cert.Gcn.dense1
  have h0 : ∀ k : Fin 32, iblk1 V c 0 t (ix2 (y 0) k) = in1_a V c (ix2 (((cfg1.win 4).blk t).view.emb y 0) k) := fun k => by
    show in1_a V c (((cfg1.win 0).blk t).view.emb (ix2 (y 0) k)) = _
    refine congrArg (in1_a V c) (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 32 + 1 * k.val = k.val; omega
  have h1 : ∀ (k : Fin 32), iblk1 V c 1 t (ix2 (0 : Fin 1) k) = in1_b2 V c (ix2 (0 : Fin 1) k) := fun k => by
    show in1_b2 V c (((cfg1.win 1).blk t).view.emb (ix2 (0 : Fin 1) k)) = _
    refine congrArg (in1_b2 V c) (funext fun a => Fin.ext ?_)
    match a with
    | ⟨0, _⟩ => show win1_1.index t (0 : Fin 2) * 1 + 1 * 0 = 0; omega
    | ⟨1, _⟩ => show win1_1.index t (1 : Fin 2) * 32 + 1 * k.val = k.val; omega
  have h2 : ∀ (k : Fin 32), iblk1 V c 2 t (ix2 k (y 1)) = in1_wfc V c (ix2 k (((cfg1.win 4).blk t).view.emb y 1)) := fun k => by
    show in1_wfc V c (((cfg1.win 2).blk t).view.emb (ix2 k (y 1))) = _
    refine congrArg (in1_wfc V c) (funext fun a => Fin.ext ?_)
    match a with
    | ⟨0, _⟩ => show win1_2.index t (0 : Fin 2) * 32 + 1 * k.val = k.val; omega
    | ⟨1, _⟩ => show win1_2.index t (1 : Fin 2) * 16 + 1 * (y 1).val = win1_4.index t (1 : Fin 2) * 16 + 1 * (y 1).val; omega
  have h3 : iblk1 V c 3 t (ix2 (0 : Fin 1) (y 1)) = in1_bfc V c (ix2 (0 : Fin 1) (((cfg1.win 4).blk t).view.emb y 1)) := by
    show in1_bfc V c (((cfg1.win 3).blk t).view.emb (ix2 (0 : Fin 1) (y 1))) = _
    refine congrArg (in1_bfc V c) (funext fun a => Fin.ext ?_)
    match a with
    | ⟨0, _⟩ => show win1_3.index t (0 : Fin 2) * 1 + 1 * 0 = 0; omega
    | ⟨1, _⟩ => show win1_3.index t (1 : Fin 2) * 16 + 1 * (y 1).val = win1_4.index t (1 : Fin 2) * 16 + 1 * (y 1).val; omega
  rw [h3]
  refine congrArg (· + _) (Finset.sum_congr rfl fun k _ => ?_)
  rw [h0 k, h1 k, h2 k]

/-- An index of the output array is in point `t`'s block iff each coordinate is in the block's range on its axis. -/
theorem mem_blk1 (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v55).slice (win1_4.rect t)).set ↔ _
  rw [View.set_slice_whole, Rect.mem_set_unit]
  exact Iff.rfl

/-- Row `r` of the output is in the block of point `r / 5000`, which writes back: the 20 blocks cover the array. -/
theorem cover1 (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  have hN : cfg1.N = 20 := by decide
  have ht : (i 0).val / 5000 < cfg1.N := by rw [hN]; omega
  refine ⟨⟨(i 0).val / 5000, ht⟩, flush1_4 _, ?_⟩
  rw [mem_blk1]
  obtain ⟨-, -, -, -, -, -, -, -, e40, e41⟩ := idx_facts1 ⟨(i 0).val / 5000, ht⟩
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 16 ≤ (i 1).val ∧ (i 1).val < win1_4.index ⟨(i 0).val / 5000, ht⟩ (1 : Fin 2) * 16 + 16
    rw [e41]; omega

/-- THE SECOND REGION'S OUTPUT ARRAY after the region, for any contents `V` it is entered with:
    `relu(a + b2) · Wfc + bfc` of its four input arrays. -/
theorem final1 (c : Dev nD) : (Gen.dat1 (F := Ideal) V c).arrAt 4 cfg1.N
      = Cert.Gcn.dense1 (V c (Pipeline.arrRef spec1 0) : (⟨2, ![100000, 32]⟩ : Shape).Idx → EReal)
          (V c (Pipeline.arrRef spec1 1) : (⟨2, ![1, 32]⟩ : Shape).Idx → EReal)
          (V c (Pipeline.arrRef spec1 2) : (⟨2, ![32, 16]⟩ : Shape).Idx → EReal)
          (V c (Pipeline.arrRef spec1 3) : (⟨2, ![1, 16]⟩ : Shape).Idx → EReal) :=
  (Gen.dat1 V c).arrAt_eq_of_cover 4 _ (fun t _ => flushed1_eq V c t) cover1

end Cert.KernelIdeal.KV

end
-- ==== Proof.Indexing.lean ====
/-
  Row scatter-add and row gather read at an index.

  A graph's edge list gives every edge `e` a destination word and a source word. The accumulating scatter adds
  edge `e`'s update row into row `v` of the operand exactly when the destination word, read as a signed integer,
  IS `v` (no clamping: an edge whose word names no row is dropped); the gather reads for edge `e` the operand's row
  at the source word read as a signed integer and clamped into the rows. Both are stated for any numbers of rows
  `N`, edges `M` and columns `C`, and never enumerate an axis.
-/
import Idealize.ShloMosaic.PureOps.Ideal
import Idealize.ShloMosaic.PureOps.Contract
import Idealize.ShloMosaic.Lib.ValueIdx

noncomputable section

open scoped BigOperators

namespace Cert.Gcn

open Idealize.ShloMosaic Idealize.ShloMosaic.ValueIdx

/-! ## The row an edge word names -/

/-- Edge `e`'s word in an `[M, 1]` array of edge words, as a signed integer. -/
def wordAt {M : Nat} (idx : IVec ⟨2, ![M, 1]⟩ 32) (e : Fin M) : Int := (idx (ix2 e (0 : Fin 1))).toInt

/-- The row a gather reads for edge `e`: the word clamped into `[0, N − 1]`. -/
def rowAt (N : Nat) (hN : 0 < N) {M : Nat} (idx : IVec ⟨2, ![M, 1]⟩ 32) (e : Fin M) : Fin N :=
  ⟨min (wordAt idx e).toNat (N - 1), by omega⟩

/-- An edge whose word is the row `v` reads row `v`. -/
theorem rowAt_of_wordAt {N : Nat} (hN : 0 < N) {M : Nat} (idx : IVec ⟨2, ![M, 1]⟩ 32) (e : Fin M) (v : Fin N)
    (h : wordAt idx e = (v.val : Int)) : rowAt N hN idx e = v := by
  apply Fin.ext
  show min (wordAt idx e).toNat (N - 1) = v.val
  rw [h, Int.toNat_natCast]
  have := v.isLt
  omega

/-! ## The accumulating scatter of rows -/

section Scatter
variable {N M C : Nat}

/-- The dimension numbers of `x.at[dst].add(upd)` for `x : [N, C]`, `dst : [M, 1]`, `upd : [M, C]`. -/
abbrev rowScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable (wf : ScatterDims.WF ⟨2, ![N, C]⟩ ⟨2, ![M, 1]⟩ ⟨2, ![M, C]⟩ [1] [0] [0] 1)

theorem rowScatter_start0 (j : (⟨2, ![M, C]⟩ : Shape).Idx) (idx : IVec ⟨2, ![M, 1]⟩ 32) :
    (rowScatter N M C wf).start j idx 0 = wordAt idx (j 0) := by
  unfold ScatterDims.start
  rw [dif_pos (show (0 : Fin 2) ∈ (rowScatter N M C wf).scatterDimsToOperandDims from List.mem_singleton.mpr rfl)]
  have hsi : (rowScatter N M C wf).siIdx j ⟨List.idxOf (0 : Fin 2) (rowScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 (j : (⟨2, ![M, C]⟩ : Shape).Idx) (idx : IVec ⟨2, ![M, 1]⟩ 32) :
    (rowScatter N M C wf).start j idx 1 = 0 := by
  unfold ScatterDims.start
  rw [dif_neg (show (1 : Fin 2) ∉ (rowScatter N M C wf).scatterDimsToOperandDims from
    fun h => absurd (List.mem_singleton.mp h) (show (1 : Fin 2) ≠ 0 by decide))]

theorem rowScatter_window0 (j : (⟨2, ![M, C]⟩ : Shape).Idx) : (rowScatter N M C wf).window j 0 = 0 := by
  unfold ScatterDims.window
  rw [dif_neg (show (0 : Fin 2) ∉ (rowScatter N M C wf).sKept from by
    simp [ScatterDims.sKept, Shape.kept, List.mem_filter, List.mem_finRange])]

theorem rowScatter_window1 (j : (⟨2, ![M, C]⟩ : Shape).Idx) : (rowScatter N M C wf).window j 1 = (j 1).val := by
  unfold ScatterDims.window
  rw [dif_pos (show (1 : Fin 2) ∈ (rowScatter N M C wf).sKept from by
    simp [ScatterDims.sKept, Shape.kept, List.mem_filter, List.mem_finRange])]
  rfl

/-- Update `(e, k')` lands on operand element `(v, k)` exactly when edge `e`'s word is `v` and `k' = k`. -/
theorem rowScatter_resultIdx_iff (idx : IVec ⟨2, ![M, 1]⟩ 32) (e : Fin M) (k' : Fin C) (v : Fin N) (k : Fin C) :
    (rowScatter N M C wf).resultIdx? (ix2 e k') idx = some (ix2 v k) ↔ wordAt idx e = (v.val : Int) ∧ k' = k := by
  have s0 : (rowScatter N M C wf).start (ix2 e k') idx 0 = wordAt idx e := rowScatter_start0 wf (ix2 e k') idx
  have s1 := rowScatter_start1 wf (ix2 e k') idx
  have w0 := rowScatter_window0 (N := N) wf (ix2 e k')
  have w1 : (rowScatter N M C wf).window (ix2 e k') 1 = k'.val := rowScatter_window1 (N := N) wf (ix2 e k')
  have hv := v.isLt
  have hk' := k'.isLt
  unfold ScatterDims.resultIdx?
  split
  · rename_i h
    rw [Option.some_inj]
    constructor
    · intro hEq
      have h0 : ((rowScatter N M C wf).start (ix2 e k') idx 0
          + (((rowScatter N M C wf).window (ix2 e k') 0 : Nat) : Int)).toNat = v.val :=
        congrArg (fun f => (f 0).val) hEq
      have h1 : ((rowScatter N M C wf).start (ix2 e k') idx 1
          + (((rowScatter N M C wf).window (ix2 e k') 1 : Nat) : Int)).toNat = k.val :=
        congrArg (fun f => (f 1).val) hEq
      have hh := (h 0).1
      rw [s0, w0] at h0 hh
      rw [s1, w1] at h1
      exact ⟨by omega, Fin.ext (by omega)⟩
    · rintro ⟨hw, rfl⟩
      funext a
      refine Fin.ext ?_
      match a with
      | ⟨0, _⟩ =>
        show ((rowScatter N M C wf).start (ix2 e k') idx 0
          + (((rowScatter N M C wf).window (ix2 e k') 0 : Nat) : Int)).toNat = v.val
        rw [s0, w0]; omega
      | ⟨1, _⟩ =>
        show ((rowScatter N M C wf).start (ix2 e k') idx 1
          + (((rowScatter N M C wf).window (ix2 e k') 1 : Nat) : Int)).toNat = k'.val
        rw [s1, w1]; omega
  · rename_i h
    constructor
    · intro hEq; exact absurd hEq (by simp)
    · rintro ⟨hw, rfl⟩
      exfalso
      apply h
      intro a
      match a with
      | ⟨0, _⟩ =>
        show 0 ≤ (rowScatter N M C wf).start (ix2 e k') idx 0
            + (((rowScatter N M C wf).window (ix2 e k') 0 : Nat) : Int) ∧
          (rowScatter N M C wf).start (ix2 e k') idx 0
            + (((rowScatter N M C wf).window (ix2 e k') 0 : Nat) : Int) < ((N : Nat) : Int)
        rw [s0, w0]; omega
      | ⟨1, _⟩ =>
        show 0 ≤ (rowScatter N M C wf).start (ix2 e k') idx 1
            + (((rowScatter N M C wf).window (ix2 e k') 1 : Nat) : Int) ∧
          (rowScatter N M C wf).start (ix2 e k') idx 1
            + (((rowScatter N M C wf).window (ix2 e k') 1 : Nat) : Int) < ((C : Nat) : Int)
        rw [s1, w1]; omega

open Classical in
/-- THE SCATTER READ AT `(v, k)`: the operand's element plus the sum, over the edges whose word is `v`, of the
    update's element `(e, k)`. -/
theorem rowScatter_apply (x : (⟨2, ![N, C]⟩ : Shape).Idx → EReal) (idx : IVec ⟨2, ![M, 1]⟩ 32)
    (upd : (⟨2, ![M, C]⟩ : Shape).Idx → EReal) (v : Fin N) (k : Fin C) :
    Ideal.hostScatterAdd (rowScatter N M C wf) x idx upd (ix2 v k)
      = x (ix2 v k) + ∑ e ∈ Finset.univ.filter (fun e : Fin M => wordAt idx e = (v.val : Int)), upd (ix2 e k) := by
  unfold Ideal.hostScatterAdd
  congr 1
  rw [Finset.sum_filter, sum_idx2, Finset.sum_filter]
  refine Finset.sum_congr rfl fun e _ => ?_
  simp only [rowScatter_resultIdx_iff wf idx e _ v k]
  by_cases hw : wordAt idx e = (v.val : Int)
  · simp only [hw, true_and, if_true]
    rw [Finset.sum_ite_eq' Finset.univ k (fun k' => upd (ix2 e k'))]
    simp
  · simp only [hw, false_and, if_false]
    exact Finset.sum_const_zero

end Scatter

/-! ## The gather of rows -/

section Gather
variable {α : Type} {N M C : Nat}

/-- The dimension numbers of `x[src]` for `x : [N, C]`, `src : [M, 1]`: the result is `[M, C]`. -/
abbrev rowGather (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at the row edge `e`'s word names (clamped), column `k`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ 32) (e : Fin M) (k : Fin C) :
    Host.gather (rowGather N M C wf) x idx (ix2 e k) = x (ix2 (rowAt N hN idx e) k) := by
  unfold Host.gather
  congr 1
  funext a
  refine Fin.ext ?_
  match a with
  | ⟨0, _⟩ =>
    show (rowGather N M C wf).start (ix2 e k) idx 0 + (rowGather N M C wf).batchCoord (ix2 e k) 0
      + (rowGather N M C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M C wf).startIndexMap from List.mem_singleton.mpr rfl)]
    have hsi : (rowGather N M C wf).siIdx (ix2 e k) ⟨List.idxOf (0 : Fin 2) (rowGather N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N M C wf).start (ix2 e k) idx 1 + (rowGather N M C wf).batchCoord (ix2 e k) 1
      + (rowGather N M C wf).offCoord (ix2 e k) 1 = k.val
    rw [GatherDims.batchCoord_eq_zero _ _ _ List.not_mem_nil]
    unfold GatherDims.start
    rw [dif_neg (show (1 : Fin 2) ∉ (rowGather N M C wf).startIndexMap from
      fun h => absurd (List.mem_singleton.mp h) (show (1 : Fin 2) ≠ 0 by decide))]
    unfold GatherDims.offCoord
    rw [dif_pos (show (1 : Fin 2) ∈ (rowGather N M C wf).sKept from
      (GatherDims.mem_sKept _ _).mpr ⟨fun h => absurd (List.mem_singleton.mp h) (show (1 : Fin 2) ≠ 0 by decide), List.not_mem_nil⟩)]
    simp only [Nat.zero_add]
    rfl

/-- The dimension numbers of `x[src]` for a flat `x : [N]`, `src : [M, 1]`: the result is `[M]`. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the entry edge `e`'s word names (clamped). -/
theorem flatGather_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ 32) (e : Fin M) :
    Host.gather (flatGather N M wf) x idx (ix1 e) = x (ix1 (rowAt N hN idx e)) := by
  unfold Host.gather
  congr 1
  funext a
  obtain rfl : a = 0 := Subsingleton.elim _ _
  refine Fin.ext ?_
  show (flatGather N M wf).start (ix1 e) idx 0 + (flatGather N M wf).batchCoord (ix1 e) 0
    + (flatGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx (ix1 e) ⟨List.idxOf (0 : Fin 1) (flatGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

end Cert.Gcn

end
-- ==== Proof.Algebra.lean ====
/-
  Sums of real numbers inside the extended reals.

  On the extended reals multiplication does not distribute over addition at the infinities, so the laws that move a
  factor across a sum are stated for entries that are real numbers (`IsReal`), and proved by carrying the sum over
  to the reals.
-/
import Idealize.ShloMosaic.PureOps.Ideal

noncomputable section

open scoped BigOperators

namespace Cert.Gcn

/-- An extended real that is a real number. -/
def IsReal (z : EReal) : Prop := ∃ r : ℝ, z = (r : EReal)

theorem IsReal.coe (r : ℝ) : IsReal (r : EReal) := ⟨r, rfl⟩
theorem IsReal.zero : IsReal 0 := ⟨0, EReal.coe_zero.symm⟩
theorem IsReal.eq_coe_toReal {z : EReal} (h : IsReal z) : z = (z.toReal : EReal) := by
  obtain ⟨r, rfl⟩ := h; rw [EReal.toReal_coe]
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max_zero {a : EReal} (ha : IsReal a) : IsReal (max a 0) := by
  obtain ⟨x, rfl⟩ := ha
  rcases le_total x 0 with h | h
  · rw [max_eq_right (show ((x : ℝ) : EReal) ≤ 0 from by exact_mod_cast h)]; exact IsReal.zero
  · rw [max_eq_left (show (0 : EReal) ≤ ((x : ℝ) : EReal) from by exact_mod_cast h)]; exact ⟨x, rfl⟩
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A real factor distributes over a finite sum of reals. -/
theorem sum_mul_real {ι : Type*} (s : Finset ι) (t : ι → EReal) (c : EReal) (ht : ∀ i ∈ s, IsReal (t i)) (hc : IsReal c) :
    (∑ i ∈ s, t i) * c = ∑ i ∈ s, t i * c := by
  obtain ⟨c, rfl⟩ := hc
  have h : ∀ i ∈ s, t i = ((t i).toReal : EReal) := fun i hi => (ht i hi).eq_coe_toReal
  rw [Finset.sum_congr rfl h, ← coe_sum, ← EReal.coe_mul, Finset.sum_mul, coe_sum]
  refine Finset.sum_congr rfl fun i hi => ?_
  rw [EReal.coe_mul, ← h i hi]

/-- AGGREGATE, THEN MULTIPLY BY THE WEIGHTS = MULTIPLY, THEN AGGREGATE. For an edge set `s`, rows `X e` gathered per
    edge, per-edge weights `a e`, a per-node weight `c` and one column `W` of a weight matrix, all real: the
    aggregated and scaled row times the column is the sum over the edges of the row-times-column products, each scaled
    by the product of the two weights. -/
theorem agg_matmul {ι κ : Type*} [Fintype κ] (s : Finset ι) (X : ι → κ → EReal) (a : ι → EReal) (c : EReal)
    (W : κ → EReal) (hX : ∀ e j, IsReal (X e j)) (ha : ∀ e, IsReal (a e)) (hc : IsReal c) (hW : ∀ j, IsReal (W j)) :
    ∑ j, ((∑ e ∈ s, X e j * a e) * c) * W j = ∑ e ∈ s, (∑ j, X e j * W j) * (a e * c) := by
  obtain ⟨Xr, rfl⟩ : ∃ Xr : ι → κ → ℝ, X = fun e j => (Xr e j : EReal) :=
    ⟨fun e j => (X e j).toReal, funext fun e => funext fun j => (hX e j).eq_coe_toReal⟩
  obtain ⟨ar, rfl⟩ : ∃ ar : ι → ℝ, a = fun e => (ar e : EReal) :=
    ⟨fun e => (a e).toReal, funext fun e => (ha e).eq_coe_toReal⟩
  obtain ⟨Wr, rfl⟩ : ∃ Wr : κ → ℝ, W = fun j => (Wr j : EReal) :=
    ⟨fun j => (W j).toReal, funext fun j => (hW j).eq_coe_toReal⟩
  obtain ⟨c, rfl⟩ := hc
  simp only [← EReal.coe_mul, ← coe_sum]
  refine congrArg _ ?_
  calc ∑ j, (∑ e ∈ s, Xr e j * ar e) * c * Wr j
      = ∑ j, ∑ e ∈ s, Xr e j * ar e * c * Wr j := by simp only [Finset.sum_mul]
    _ = ∑ e ∈ s, ∑ j, Xr e j * ar e * c * Wr j := Finset.sum_comm
    _ = ∑ e ∈ s, (∑ j, Xr e j * Wr j) * (ar e * c) := by
        refine Finset.sum_congr rfl fun e _ => ?_
        rw [Finset.sum_mul]
        exact Finset.sum_congr rfl fun j _ => by ring

end Cert.Gcn

end
-- ==== Proof.Spec.lean ====
/-
  The two-layer graph convolution as a function of its arguments, in the two arrangements that are to be compared,
  and the proof that they agree on real data.

  Nodes `v < 100000`, edges `e < 3300000` (the self-loops included). Edge `e` has a source row `src S e` (its source
  word clamped into the nodes) and contributes to node `v` exactly when its destination word IS `v`
  (`edgesInto D v`). With `dinv v` the inverse square root of the degree:

  * the FIRST arrangement scales a node array by `dinv`, sums the source rows over the edges into `v`, scales by
    `dinv v` (`aggK`), and applies the dense stages after the aggregation:
    `dense1 (aggK (dense0 (aggK x) W1 b1 W2)) b2 Wfc bfc`;
  * the SECOND multiplies by the weights first and weighs edge `e`'s row by `dinv (src e) · dinv (dst e)` (`aggR`):
    `relu(aggR(relu(aggR(x·W1) + b1)·W2) + b2)·Wfc + bfc`.

  They agree because the aggregation is linear and, on an edge into `v`, the destination row is `v`; linearity needs
  every entry to be a real number (on the extended reals a factor does not move across a sum at the infinities).
-/
import proofs.«147672_j1675037246076_2_alg».proof.Proof.Dense
import proofs.«147672_j1675037246076_2_alg».proof.Proof.Indexing
import proofs.«147672_j1675037246076_2_alg».proof.Proof.Algebra

noncomputable section

open scoped BigOperators

namespace Cert.Gcn

open Idealize.ShloMosaic Idealize.ShloMosaic.ValueIdx

/-- An array of one 32-bit word per edge. -/
abbrev Words := IVec ⟨2, ![3300000, 1]⟩ 32
/-- One extended real per node. -/
abbrev NodeVec := (⟨1, ![100000]⟩ : Shape).Idx → EReal

theorem nodes_pos : 0 < 100000 := by norm_num

open Classical in
/-- The edges whose destination word is the node `v`. -/
def edgesInto (D : Words) (v : Fin 100000) : Finset (Fin 3300000) :=
  Finset.univ.filter (fun e => wordAt D e = (v.val : Int))

theorem mem_edgesInto {D : Words} {v : Fin 100000} {e : Fin 3300000} (h : e ∈ edgesInto D v) :
    wordAt D e = (v.val : Int) := by
  classical
  exact (Finset.mem_filter.mp h).2

/-- The node a gather reads for edge `e`: the word clamped into the nodes. -/
def src (S : Words) (e : Fin 3300000) : Fin 100000 := rowAt 100000 nodes_pos S e

/-- A flat bias `b : [C]` as the one-row array `[1, C]`. -/
def rowOf {C : Nat} (b : (⟨1, ![C]⟩ : Shape).Idx → EReal) : (⟨2, ![1, C]⟩ : Shape).Idx → EReal := fun i => b (ix1 (i 1))

/-- Scale by `dinv`, sum the source rows over the edges into each node, scale by `dinv` again. -/
def aggK {C : Nat} (S D : Words) (dinv : NodeVec) (h : (⟨2, ![100000, C]⟩ : Shape).Idx → EReal) :
    (⟨2, ![100000, C]⟩ : Shape).Idx → EReal :=
  fun i => (∑ e ∈ edgesInto D (i 0), h (ix2 (src S e) (i 1)) * dinv (ix1 (src S e))) * dinv (ix1 (i 0))

/-- Sum over the edges into each node of the source row weighed by `dinv (src e) · dinv (dst e)`, the destination
    row read through the (wrapped and clamped) destination words `Dw`. -/
def aggR {C : Nat} (S D Dw : Words) (dinv : NodeVec) (h : (⟨2, ![100000, C]⟩ : Shape).Idx → EReal) :
    (⟨2, ![100000, C]⟩ : Shape).Idx → EReal :=
  fun i => ∑ e ∈ edgesInto D (i 0), h (ix2 (src S e) (i 1)) * (dinv (ix1 (src S e)) * dinv (ix1 (src Dw e)))

/-- A node array times a weight matrix. -/
def lin {A B : Nat} (h : (⟨2, ![100000, A]⟩ : Shape).Idx → EReal) (W : (⟨2, ![A, B]⟩ : Shape).Idx → EReal) :
    (⟨2, ![100000, B]⟩ : Shape).Idx → EReal :=
  fun i => ∑ j : Fin A, h (ix2 (i 0) j) * W (ix2 j (i 1))

/-- `relu(h + b)` with the bias a one-row array. -/
def reluBias {C : Nat} (h : (⟨2, ![100000, C]⟩ : Shape).Idx → EReal) (b : (⟨2, ![1, C]⟩ : Shape).Idx → EReal) :
    (⟨2, ![100000, C]⟩ : Shape).Idx → EReal :=
  fun i => max (h i + b (ix2 (0 : Fin 1) (i 1))) 0

section
variable (x : (⟨2, ![100000, 16]⟩ : Shape).Idx → EReal) (W1 : (⟨2, ![16, 48]⟩ : Shape).Idx → EReal)
  (b1 : (⟨2, ![1, 48]⟩ : Shape).Idx → EReal) (W2 : (⟨2, ![48, 32]⟩ : Shape).Idx → EReal)
  (b2 : (⟨2, ![1, 32]⟩ : Shape).Idx → EReal) (Wfc : (⟨2, ![32, 16]⟩ : Shape).Idx → EReal)
  (bfc : (⟨2, ![1, 16]⟩ : Shape).Idx → EReal) (S D Dw : Words) (dinv : NodeVec)

/-- The first arrangement: aggregate, then the dense stages. -/
def aggThenDense : (⟨2, ![100000, 16]⟩ : Shape).Idx → EReal :=
  dense1 (aggK S D dinv (dense0 (aggK S D dinv x) W1 b1 W2)) b2 Wfc bfc

/-- The second arrangement's hidden layer: `relu(aggR(x·W1) + b1)·W2`. -/
def hidden : (⟨2, ![100000, 32]⟩ : Shape).Idx → EReal :=
  lin (reluBias (aggR S D Dw dinv (lin x W1)) b1) W2

/-- The second arrangement: multiply, then aggregate, twice; then the last dense layer. -/
def denseThenAgg : (⟨2, ![100000, 16]⟩ : Shape).Idx → EReal :=
  fun i => lin (reluBias (aggR S D Dw dinv (hidden x W1 b1 W2 S D Dw dinv)) b2) Wfc i + bfc (ix2 (0 : Fin 1) (i 1))

variable (hx : ∀ i, IsReal (x i)) (hW1 : ∀ i, IsReal (W1 i)) (hb1 : ∀ i, IsReal (b1 i)) (hW2 : ∀ i, IsReal (W2 i))
  (hdinv : ∀ i, IsReal (dinv i))
  (hD : ∀ (e : Fin 3300000) (v : Fin 100000), wordAt D e = (v.val : Int) → src Dw e = v)

include hdinv in
theorem aggR_real {C : Nat} (h : (⟨2, ![100000, C]⟩ : Shape).Idx → EReal) (hh : ∀ i, IsReal (h i)) (i) :
    IsReal (aggR S D Dw dinv h i) :=
  IsReal.sum _ _ fun e _ => (hh _).mul ((hdinv _).mul (hdinv _))

theorem lin_real {A B : Nat} (h : (⟨2, ![100000, A]⟩ : Shape).Idx → EReal) (W : (⟨2, ![A, B]⟩ : Shape).Idx → EReal)
    (hh : ∀ i, IsReal (h i)) (hW : ∀ i, IsReal (W i)) (i) : IsReal (lin h W i) :=
  IsReal.sum _ _ fun j _ => (hh _).mul (hW _)

theorem reluBias_real {C : Nat} (h : (⟨2, ![100000, C]⟩ : Shape).Idx → EReal) (b : (⟨2, ![1, C]⟩ : Shape).Idx → EReal)
    (hh : ∀ i, IsReal (h i)) (hb : ∀ i, IsReal (b i)) (i) : IsReal (reluBias h b i) :=
  ((hh _).add (hb _)).max_zero

include hx hW1 hb1 hW2 hdinv in
theorem hidden_real (i) : IsReal (hidden x W1 b1 W2 S D Dw dinv i) :=
  lin_real _ _ (reluBias_real _ _ (aggR_real S D Dw dinv hdinv _ (lin_real _ _ hx hW1)) hb1) hW2 i

include hx hW1 hdinv hD in
/-- Layer one: the aggregated rows times `W1` are the aggregated products. -/
theorem lin_aggK (v : Fin 100000) (k : Fin 48) :
    lin (aggK S D dinv x) W1 (ix2 v k) = aggR S D Dw dinv (lin x W1) (ix2 v k) := by
  show ∑ j : Fin 16, ((∑ e ∈ edgesInto D v, x (ix2 (src S e) j) * dinv (ix1 (src S e))) * dinv (ix1 v)) * W1 (ix2 j k)
    = ∑ e ∈ edgesInto D v, (∑ j : Fin 16, x (ix2 (src S e) j) * W1 (ix2 j k)) * (dinv (ix1 (src S e)) * dinv (ix1 (src Dw e)))
  rw [agg_matmul (edgesInto D v) (fun e j => x (ix2 (src S e) j)) (fun e => dinv (ix1 (src S e))) (dinv (ix1 v))
    (fun j => W1 (ix2 j k)) (fun _ _ => hx _) (fun _ => hdinv _) (hdinv _) (fun _ => hW1 _)]
  refine Finset.sum_congr rfl fun e he => ?_
  rw [hD e v (mem_edgesInto he)]

include hx hW1 hdinv hD in
/-- The first dense stage over the aggregated input is the second arrangement's hidden layer. -/
theorem dense0_aggK : dense0 (aggK S D dinv x) W1 b1 W2 = hidden x W1 b1 W2 S D Dw dinv := by
  funext i
  obtain ⟨v, c, rfl⟩ : ∃ (v : Fin 100000) (c : Fin 32), i = ix2 v c := ⟨i 0, i 1, eq_ix2 i⟩
  show ∑ k : Fin 48, max ((∑ j : Fin 16, aggK S D dinv x (ix2 v j) * W1 (ix2 j k)) + b1 (ix2 (0 : Fin 1) k)) 0 * W2 (ix2 k c)
    = ∑ k : Fin 48, max (aggR S D Dw dinv (lin x W1) (ix2 v k) + b1 (ix2 (0 : Fin 1) k)) 0 * W2 (ix2 k c)
  refine Finset.sum_congr rfl fun k _ => ?_
  rw [← lin_aggK x W1 S D Dw dinv hx hW1 hdinv hD v k]
  rfl

include hdinv hD in
/-- Layer two: on real rows the two aggregations agree. -/
theorem aggK_eq_aggR {C : Nat} (h : (⟨2, ![100000, C]⟩ : Shape).Idx → EReal) (hh : ∀ i, IsReal (h i)) :
    aggK S D dinv h = aggR S D Dw dinv h := by
  funext i
  show (∑ e ∈ edgesInto D (i 0), h (ix2 (src S e) (i 1)) * dinv (ix1 (src S e))) * dinv (ix1 (i 0))
    = ∑ e ∈ edgesInto D (i 0), h (ix2 (src S e) (i 1)) * (dinv (ix1 (src S e)) * dinv (ix1 (src Dw e)))
  rw [sum_mul_real _ _ _ (fun e _ => (hh _).mul (hdinv _)) (hdinv _)]
  refine Finset.sum_congr rfl fun e he => ?_
  rw [hD e (i 0) (mem_edgesInto he), mul_assoc]

include hx hW1 hb1 hW2 hdinv hD in
/-- THE BRIDGE: on real data the two arrangements are one function. -/
theorem aggThenDense_eq_denseThenAgg :
    aggThenDense x W1 b1 W2 b2 Wfc bfc S D dinv = denseThenAgg x W1 b1 W2 b2 Wfc bfc S D Dw dinv := by
  unfold aggThenDense
  rw [dense0_aggK x W1 b1 W2 S D Dw dinv hx hW1 hdinv hD,
    aggK_eq_aggR S D Dw dinv hdinv hD _ (hidden_real x W1 b1 W2 S D Dw dinv hx hW1 hb1 hW2 hdinv)]
  rfl

end

end Cert.Gcn

end
-- ==== Proof.Layer.lean ====
/-
  One aggregation layer of the graph convolution as each program spells it with array operations, read as the
  node-by-node sums of Spec.lean.

  Both programs build an aggregation from the same pieces: a gather of source rows, a broadcast of per-node or
  per-edge weights along the columns, products, and an accumulating scatter into a zero array. The first program
  scales the node array by `dinv` before the gather and the summed array after the scatter (`aggK`); the second
  weighs each gathered row by the product of the two gathered `dinv` entries (`aggR`). The readings are proved for any
  numbers of nodes `N`, edges `M` and columns `C`, and then stated at the graph's sizes.
-/
import proofs.«147672_j1675037246076_2_alg».proof.Proof.Spec
import Idealize.ShloMosaic.Lib.Pipeline.Value
import Idealize.ShloMosaic.PureOps.Ideal.Laws

noncomputable section

open scoped BigOperators

namespace Cert.Gcn

open Idealize.ShloMosaic Idealize.ShloMosaic.ValueIdx

/-- A column `y : [A]` broadcast to `[A, 1]` and then along `C` columns reads `y a` at `(a, k)`. -/
theorem colBcast_apply {α : Type} {A C : Nat} (hA : A ≠ 1)
    (hb1 : (⟨1, ![A]⟩ : Shape).BroadcastsInDim ⟨2, ![A, 1]⟩ (![0] : Fin 1 → Fin 2))
    (hb2 : (⟨2, ![A, 1]⟩ : Shape).BroadcastsInDim ⟨2, ![A, C]⟩ (![0, 1] : Fin 2 → Fin 2))
    (y : (⟨1, ![A]⟩ : Shape).Idx → α) (a : Fin A) (k : Fin C) :
    broadcastInDim ⟨2, ![A, C]⟩ ![0, 1] hb2 (broadcastInDim ⟨2, ![A, 1]⟩ ![0] hb1 y) (ix2 a k) = y (ix1 a) := by
  rw [broadcastInDim_apply _ hb2 _ (ix2 a k) (ix2 a (0 : Fin 1)) (fun b => match b with
      | ⟨0, _⟩ => by show a.val = if A = 1 then 0 else a.val; rw [if_neg hA]
      | ⟨1, _⟩ => by show 0 = if (1 : Nat) = 1 then 0 else k.val; rw [if_pos rfl]),
    broadcastInDim_apply _ hb1 y (ix2 a (0 : Fin 1)) (ix1 a) (fun b => match b with
      | ⟨0, _⟩ => by show a.val = if A = 1 then 0 else a.val; rw [if_neg hA])]

/-- At the extended reals the host's accumulating scatter is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

section AnySizes
variable {N M C : Nat}
  (wfS : ScatterDims.WF ⟨2, ![N, C]⟩ ⟨2, ![M, 1]⟩ ⟨2, ![M, C]⟩ [1] [0] [0] 1)
  (wfG : GatherDims.WF ⟨2, ![N, C]⟩ ⟨2, ![M, 1]⟩ ⟨2, ![M, C]⟩ [1] [0] [] [0] [] 1 ![1, C])
  (wfF : GatherDims.WF ⟨1, ![N]⟩ ⟨2, ![M, 1]⟩ ⟨1, ![M]⟩ [] [0] [] [0] [] 1 ![1])
  (hz : (⟨0, ![]⟩ : Shape).BroadcastsInDim ⟨2, ![N, C]⟩ (![] : Fin 0 → Fin 2))
  (he1 : (⟨1, ![M]⟩ : Shape).BroadcastsInDim ⟨2, ![M, 1]⟩ (![0] : Fin 1 → Fin 2))
  (he2 : (⟨2, ![M, 1]⟩ : Shape).BroadcastsInDim ⟨2, ![M, C]⟩ (![0, 1] : Fin 2 → Fin 2))
  (hn1 : (⟨1, ![N]⟩ : Shape).BroadcastsInDim ⟨2, ![N, 1]⟩ (![0] : Fin 1 → Fin 2))
  (hn2 : (⟨2, ![N, 1]⟩ : Shape).BroadcastsInDim ⟨2, ![N, C]⟩ (![0, 1] : Fin 2 → Fin 2))
  (hlt : FTy.bf16.bits < FTy.f32.bits)

/-- The zero array a scatter accumulates into. -/
theorem zeros_apply (i : (⟨2, ![N, C]⟩ : Shape).Idx) :
    broadcastInDim ⟨2, ![N, C]⟩ ![] hz (constant (F := Ideal) ⟨0, ![]⟩ .f32 0x00000000#32) i = 0 := by
  rw [broadcastInDim_apply _ hz _ i ix0 (fun a => a.elim0)]
  exact Ideal.ofBits_zero_f32

open Classical in
/-- The second program's layer at `(v, k)`: the sum over the edges whose destination word is `v` of the gathered row
    entry times the product of the two gathered weights. -/
theorem refAgg_apply (hN : 0 < N) (hM1 : M ≠ 1) (h : FVec Ideal ⟨2, ![N, C]⟩ .f32) (S D Dw : IVec ⟨2, ![M, 1]⟩ 32)
    (dinv : FVec Ideal ⟨1, ![N]⟩ .f32) (v : Fin N) (k : Fin C) :
    Host.scatterAdd (F := Ideal) (rowScatter N M C wfS)
        (broadcastInDim ⟨2, ![N, C]⟩ ![] hz (constant (F := Ideal) ⟨0, ![]⟩ .f32 0x00000000#32)) D
        (mulf (Host.gather (rowGather N M C wfG) h S)
          (broadcastInDim ⟨2, ![M, C]⟩ ![0, 1] he2 (broadcastInDim ⟨2, ![M, 1]⟩ ![0] he1
            (mulf (Host.gather (flatGather N M wfF) dinv S) (Host.gather (flatGather N M wfF) dinv Dw))))) (ix2 v k)
      = ∑ e ∈ Finset.univ.filter (fun e : Fin M => wordAt D e = (v.val : Int)),
          h (ix2 (rowAt N hN S e) k) * (dinv (ix1 (rowAt N hN S e)) * dinv (ix1 (rowAt N hN Dw e))) := by
  rw [scatterAdd_ideal, rowScatter_apply, zeros_apply, zero_add]
  refine Finset.sum_congr rfl fun e _ => ?_
  rw [mulf_apply, rowGather_apply hN, colBcast_apply hM1 he1 he2, mulf_apply, flatGather_apply hN, flatGather_apply hN]

open Classical in
/-- The first program's layer at `(v, k)`: the sum over the edges whose destination word is `v` of the scaled source
    row entry, scaled by `dinv v`; the two format changes are the identity on extended reals. -/
theorem kerAgg_apply (hN : 0 < N) (hN1 : N ≠ 1) (h : FVec Ideal ⟨2, ![N, C]⟩ .f32) (S D : IVec ⟨2, ![M, 1]⟩ 32)
    (dinv : FVec Ideal ⟨1, ![N]⟩ .f32) (v : Fin N) (k : Fin C) :
    mulf (Host.scatterAdd (F := Ideal) (rowScatter N M C wfS)
        (broadcastInDim ⟨2, ![N, C]⟩ ![] hz (constant (F := Ideal) ⟨0, ![]⟩ .f32 0x00000000#32)) D
        (extf .f32 (Host.gather (rowGather N M C wfG)
          (truncf .bf16 (mulf h (broadcastInDim ⟨2, ![N, C]⟩ ![0, 1] hn2
            (broadcastInDim ⟨2, ![N, 1]⟩ ![0] hn1 dinv))) hlt) S) hlt))
      (broadcastInDim ⟨2, ![N, C]⟩ ![0, 1] hn2 (broadcastInDim ⟨2, ![N, 1]⟩ ![0] hn1 dinv)) (ix2 v k)
      = (∑ e ∈ Finset.univ.filter (fun e : Fin M => wordAt D e = (v.val : Int)),
          h (ix2 (rowAt N hN S e) k) * dinv (ix1 (rowAt N hN S e))) * dinv (ix1 v) := by
  rw [mulf_apply, colBcast_apply hN1 hn1 hn2, scatterAdd_ideal, rowScatter_apply, zeros_apply, zero_add]
  refine congrArg (· * dinv (ix1 v)) (Finset.sum_congr rfl fun e _ => ?_)
  rw [extf_apply, rowGather_apply hN, truncf_apply, mulf_apply, colBcast_apply hN1 hn1 hn2]

end AnySizes

/-! ## At the graph's sizes -/

section
variable {C : Nat}
  (wfS : ScatterDims.WF ⟨2, ![100000, C]⟩ ⟨2, ![3300000, 1]⟩ ⟨2, ![3300000, C]⟩ [1] [0] [0] 1)
  (wfG : GatherDims.WF ⟨2, ![100000, C]⟩ ⟨2, ![3300000, 1]⟩ ⟨2, ![3300000, C]⟩ [1] [0] [] [0] [] 1 ![1, C])
  (wfF : GatherDims.WF ⟨1, ![100000]⟩ ⟨2, ![3300000, 1]⟩ ⟨1, ![3300000]⟩ [] [0] [] [0] [] 1 ![1])
  (hz : (⟨0, ![]⟩ : Shape).BroadcastsInDim ⟨2, ![100000, C]⟩ (![] : Fin 0 → Fin 2))
  (he1 : (⟨1, ![3300000]⟩ : Shape).BroadcastsInDim ⟨2, ![3300000, 1]⟩ (![0] : Fin 1 → Fin 2))
  (he2 : (⟨2, ![3300000, 1]⟩ : Shape).BroadcastsInDim ⟨2, ![3300000, C]⟩ (![0, 1] : Fin 2 → Fin 2))
  (hn1 : (⟨1, ![100000]⟩ : Shape).BroadcastsInDim ⟨2, ![100000, 1]⟩ (![0] : Fin 1 → Fin 2))
  (hn2 : (⟨2, ![100000, 1]⟩ : Shape).BroadcastsInDim ⟨2, ![100000, C]⟩ (![0, 1] : Fin 2 → Fin 2))
  (hlt : FTy.bf16.bits < FTy.f32.bits)

/-- THE SECOND PROGRAM'S LAYER is `aggR` (the weight's source gather may use a second copy `Sn` of the source words). -/
theorem refAgg_eq (h : FVec Ideal ⟨2, ![100000, C]⟩ .f32) (S Sn D Dw : Words) (dinv : FVec Ideal ⟨1, ![100000]⟩ .f32)
    (hSn : Sn = S) :
    Host.scatterAdd (F := Ideal) (rowScatter 100000 3300000 C wfS)
        (broadcastInDim ⟨2, ![100000, C]⟩ ![] hz (constant (F := Ideal) ⟨0, ![]⟩ .f32 0x00000000#32)) D
        (mulf (Host.gather (rowGather 100000 3300000 C wfG) h S)
          (broadcastInDim ⟨2, ![3300000, C]⟩ ![0, 1] he2 (broadcastInDim ⟨2, ![3300000, 1]⟩ ![0] he1
            (mulf (Host.gather (flatGather 100000 3300000 wfF) dinv Sn)
              (Host.gather (flatGather 100000 3300000 wfF) dinv Dw)))))
      = aggR S D Dw dinv h := by
  subst hSn
  funext i
  obtain ⟨v, k, rfl⟩ : ∃ (v : Fin 100000) (k : Fin C), i = ix2 v k := ⟨i 0, i 1, eq_ix2 i⟩
  exact refAgg_apply wfS wfG wfF hz he1 he2 nodes_pos (by norm_num) h Sn D Dw dinv v k

/-- THE FIRST PROGRAM'S LAYER is `aggK`. -/
theorem kerAgg_eq (h : FVec Ideal ⟨2, ![100000, C]⟩ .f32) (S D : Words) (dinv : FVec Ideal ⟨1, ![100000]⟩ .f32) :
    mulf (Host.scatterAdd (F := Ideal) (rowScatter 100000 3300000 C wfS)
        (broadcastInDim ⟨2, ![100000, C]⟩ ![] hz (constant (F := Ideal) ⟨0, ![]⟩ .f32 0x00000000#32)) D
        (extf .f32 (Host.gather (rowGather 100000 3300000 C wfG)
          (truncf .bf16 (mulf h (broadcastInDim ⟨2, ![100000, C]⟩ ![0, 1] hn2
            (broadcastInDim ⟨2, ![100000, 1]⟩ ![0] hn1 dinv))) hlt) S) hlt))
      (broadcastInDim ⟨2, ![100000, C]⟩ ![0, 1] hn2 (broadcastInDim ⟨2, ![100000, 1]⟩ ![0] hn1 dinv))
      = aggK S D dinv h := by
  funext i
  obtain ⟨v, k, rfl⟩ : ∃ (v : Fin 100000) (k : Fin C), i = ix2 v k := ⟨i 0, i 1, eq_ix2 i⟩
  exact kerAgg_apply wfS wfG hz hn1 hn2 hlt nodes_pos (by norm_num) h S D dinv v k

end

end Cert.Gcn

end
-- ==== Proof.KValue.lean ====
/-
  The kernel's result as one function of the launch memory.

  The result array after the run is the second region's output; that region's output is the second dense stage of
  its inputs; its row-blocked input is one aggregation layer of the first region's output, which is the first dense
  stage of ITS inputs; and the first region's row-blocked input is one aggregation layer of the node features. With
  each aggregation layer read as the node-by-node sum `aggK` and each flat bias as its one-row array `rowOf`, the
  result is `aggThenDense` of the eight arguments.
-/
import proofs.«147672_j1675037246076_2_alg».proof.Proof.KRun
import proofs.«147672_j1675037246076_2_alg».proof.Proof.KRegion0
import proofs.«147672_j1675037246076_2_alg».proof.Proof.KRegion1
import proofs.«147672_j1675037246076_2_alg».proof.Proof.Layer
import proofs.«147672_j1675037246076_2_alg».proof.Proof.RefRead

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem

/-- A flat array `[C]` cast to the one-row array `[1, C]` reads `b k` at `(0, k)`. -/
theorem shapeCast_rowOf {C : Nat} (b : (⟨1, ![C]⟩ : Shape).Idx → EReal) (h : (⟨1, ![C]⟩ : Shape).ShapeCasts ⟨2, ![1, C]⟩) :
    shapeCast ⟨2, ![1, C]⟩ b h = Cert.Gcn.rowOf b := by
  funext i
  refine shapeCast_apply b h i (ix1 (i 1)) ?_
  rw [Shape.rowMajor_val_one, Shape.rowMajor_val_two]
  have h0 : (i 0).val = 0 := by have := idx2_lt0 i; omega
  show (i 1).val = (i 0).val * C + (i 1).val
  rw [h0]; omega

section
variable (m : (ℓ : Loc nD τ sig) → Buf (Elt Ideal) ℓ) (ρ : Dev nD → PrngReg) (c : Dev nD)

/-- The eight arguments as launched: node features, edge words, `W1`, `b1`, `W2`, `b2`, `Wfc`, `bfc`. -/
abbrev arg0 : (⟨2, ![100000, 16]⟩ : Shape).Idx → EReal := m ((c.tc : Thread nD τ).loc main_arg0)
abbrev arg1 : IVec ⟨2, ![2, 3200000]⟩ 32 := m ((c.tc : Thread nD τ).loc main_arg1)
abbrev arg2 : (⟨2, ![16, 48]⟩ : Shape).Idx → EReal := m ((c.tc : Thread nD τ).loc main_arg2)
abbrev arg3 : (⟨1, ![48]⟩ : Shape).Idx → EReal := m ((c.tc : Thread nD τ).loc main_arg3)
abbrev arg4 : (⟨2, ![48, 32]⟩ : Shape).Idx → EReal := m ((c.tc : Thread nD τ).loc main_arg4)
abbrev arg5 : (⟨1, ![32]⟩ : Shape).Idx → EReal := m ((c.tc : Thread nD τ).loc main_arg5)
abbrev arg6 : (⟨2, ![32, 16]⟩ : Shape).Idx → EReal := m ((c.tc : Thread nD τ).loc main_arg6)
abbrev arg7 : (⟨1, ![16]⟩ : Shape).Idx → EReal := m ((c.tc : Thread nD τ).loc main_arg7)
/-- The source words and the destination words of the edges (self-loops appended), and the inverse square root of the
    degree, as functions of the edge argument. -/
abbrev srcW : Cert.Gcn.Words := Cert.ReferenceIdeal.ReadP.val_main_v36 (F := Ideal) (arg1 m c)
abbrev dstW : Cert.Gcn.Words := Cert.ReferenceIdeal.ReadP.val_main_v42 (F := Ideal) (arg1 m c)
abbrev dinvV : Cert.Gcn.NodeVec := Cert.ReferenceIdeal.ReadP.val_main_v15 (F := Ideal) (arg1 m c)

/-- THE RESULT from what the two regions are entered with: given the first region's row-blocked input as one
    aggregation layer of the node features (`H1`), the second region's as one aggregation layer of the first region's
    output (`H3`), and the weights and one-row biases as the arguments (`H2`, `H4`), the result array is the first
    arrangement of the graph convolution. -/
theorem kernel_value_of
    (H1 : Gen.V3 m ρ c (Pipeline.arrRef spec0 0) = mulf (Host.scatterAdd (F := Ideal) scatter_S100000x16_S3300000x1_S3300000x16_1_0_0_1 (broadcastInDim S100000x16 ![] bcast_S_S100000x16 (constant (F := Ideal) S_ .f32 0x00000000#32)) (dstW m c) (extf .f32 (Host.gather gather_S100000x16_S3300000x1_S3300000x16_1_0_n_n_0_1_116 (truncf .bf16 (mulf (arg0 m c) (broadcastInDim S100000x16 ![0, 1] bcast_S100000x1_S100000x16_0_1 (broadcastInDim S100000x1 ![0] bcast_S100000_S100000x1_0 (dinvV m c)))) bitsLt_bf16_f32) (srcW m c)) bitsLt_bf16_f32)) (broadcastInDim S100000x16 ![0, 1] bcast_S100000x1_S100000x16_0_1 (broadcastInDim S100000x1 ![0] bcast_S100000_S100000x1_0 (dinvV m c))))
    (H2a : Gen.V3 m ρ c (Pipeline.arrRef spec0 1) = arg2 m c)
    (H2b : Gen.V3 m ρ c (Pipeline.arrRef spec0 2) = shapeCast S1x48 (arg3 m c) shapeCasts_S48_S1x48)
    (H2c : Gen.V3 m ρ c (Pipeline.arrRef spec0 3) = arg4 m c)
    (H3 : Gen.V5 m ρ c (Pipeline.arrRef spec1 0) = mulf (Host.scatterAdd (F := Ideal) scatter_S100000x32_S3300000x1_S3300000x32_1_0_0_1 (broadcastInDim S100000x32 ![] bcast_S_S100000x32 (constant (F := Ideal) S_ .f32 0x00000000#32)) (dstW m c) (extf .f32 (Host.gather gather_S100000x32_S3300000x1_S3300000x32_1_0_n_n_0_1_132 (truncf .bf16 (mulf (Gen.W4 m ρ c (Proc.devRef .tc main_v34)) (broadcastInDim S100000x32 ![0, 1] bcast_S100000x1_S100000x32_0_1 (broadcastInDim S100000x1 ![0] bcast_S100000_S100000x1_0 (dinvV m c)))) bitsLt_bf16_f32) (srcW m c)) bitsLt_bf16_f32)) (broadcastInDim S100000x32 ![0, 1] bcast_S100000x1_S100000x32_0_1 (broadcastInDim S100000x1 ![0] bcast_S100000_S100000x1_0 (dinvV m c))))
    (H4a : Gen.V5 m ρ c (Pipeline.arrRef spec1 1) = shapeCast S1x32 (arg5 m c) shapeCasts_S32_S1x32)
    (H4b : Gen.V5 m ρ c (Pipeline.arrRef spec1 2) = arg6 m c)
    (H4c : Gen.V5 m ρ c (Pipeline.arrRef spec1 3) = shapeCast S1x16 (arg7 m c) shapeCasts_S16_S1x16) :
    Gen.W6 m ρ c (Proc.devRef .tc main_v55)
      = Cert.Gcn.aggThenDense (arg0 m c) (arg2 m c) (Cert.Gcn.rowOf (arg3 m c)) (arg4 m c) (Cert.Gcn.rowOf (arg5 m c)) (arg6 m c)
          (Cert.Gcn.rowOf (arg7 m c)) (srcW m c) (dstW m c) (dinvV m c) := by
  have e0 : Gen.V3 m ρ c (Pipeline.arrRef spec0 0) = Cert.Gcn.aggK (srcW m c) (dstW m c) (dinvV m c) (arg0 m c) :=
    H1.trans (Cert.Gcn.kerAgg_eq (C := 16) scatter_S100000x16_S3300000x1_S3300000x16_1_0_0_1_wf
      gather_S100000x16_S3300000x1_S3300000x16_1_0_n_n_0_1_116_wf bcast_S_S100000x16 bcast_S100000_S100000x1_0
      bcast_S100000x1_S100000x16_0_1 bitsLt_bf16_f32 (arg0 m c) (srcW m c) (dstW m c) (dinvV m c))
  have e1 : Gen.V5 m ρ c (Pipeline.arrRef spec1 0)
      = Cert.Gcn.aggK (srcW m c) (dstW m c) (dinvV m c) (Gen.W4 m ρ c (Proc.devRef .tc main_v34)) :=
    H3.trans (Cert.Gcn.kerAgg_eq (C := 32) scatter_S100000x32_S3300000x1_S3300000x32_1_0_0_1_wf
      gather_S100000x32_S3300000x1_S3300000x32_1_0_n_n_0_1_132_wf bcast_S_S100000x32 bcast_S100000_S100000x1_0
      bcast_S100000x1_S100000x32_0_1 bitsLt_bf16_f32 (Gen.W4 m ρ c (Proc.devRef .tc main_v34)) (srcW m c) (dstW m c) (dinvV m c))
  rw [W6_result m ρ c, final1 (Gen.V5 m ρ) c, e1, H4a, H4b, H4c, W4_result m ρ c, final0 (Gen.V3 m ρ) c, e0, H2a, H2b, H2c,
    shapeCast_rowOf, shapeCast_rowOf, shapeCast_rowOf]
  rfl

end

end Cert.KernelIdeal.KV

end
-- ==== Proof.KHost.lean ====
/-
  THE HOST OPERATIONS BEFORE THE FIRST REGION, READ BACK. After the first two stretches of host operations the
  buffers the later stretches read hold explicit terms of the launch memory: the source words and the destination
  words with the self-loops appended (rows 0 and 1 of the edge words, each followed by 0 … 99999), the inverse
  square-root degree where(deg > 0, rsqrt deg, 0) with deg the scatter-add of ones into zeros at the destination
  words, and the argument arrays as launched. Each is the term the reference program computes from the same edge
  words, operation for operation; the two programs' shape witnesses are proofs, so the terms agree by unfolding.
-/
import proofs.«147672_j1675037246076_2_alg».proof.Proof.Gen.KernelIdeal.Frame
import proofs.«147672_j1675037246076_2_alg».proof.Proof.RefRead
import Idealize.ShloMosaic.Lib.StableHlo.Run

set_option maxRecDepth 16384

noncomputable section

namespace Cert.KernelIdeal.KV

open Cert.KernelIdeal Cert.KernelIdeal.Gen Idealize.ShloMosaic Idealize.ShloMosaic.StableHlo
open Idealize.ShloMosaic.TcCoe Idealize.SL.Sem

variable (m : (ℓ : Loc nD τ sig) → Buf (Elt Ideal) ℓ) (ρ : Dev nD → PrngReg) (c : Dev nD)

namespace Atom

/-- The remaining operation results, rewritten one at a time (under a dependent pair, where simp does not go). -/
macro "results_rw" : tactic =>
  `(tactic| repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)))

/-- The edge words of the launch memory on core c. -/
abbrev x1 : IVec S2x3200000 32 := m ((c : Thread nD τ).loc main_arg1)

/-- The source and destination words with the self-loops appended (the kernel's literal terms). -/
abbrev k5 : IVec S3300000 32 :=
  concatenate S3300000 0 [⟨S3200000, shapeCast S3200000 (extractStridedSlice S1x3200000 ![0, 0] (x1 m c) slices_S2x3200000_S1x3200000_0_0) shapeCasts_S1x3200000_S3200000⟩, ⟨S100000, iotaInDim S100000 32 0⟩] concatenates_S3200000_S100000_S3300000_d0
abbrev k6 : IVec S3300000 32 :=
  concatenate S3300000 0 [⟨S3200000, shapeCast S3200000 (extractStridedSlice S1x3200000 ![1, 0] (x1 m c) slices_S2x3200000_S1x3200000_1_0) shapeCasts_S1x3200000_S3200000⟩, ⟨S100000, iotaInDim S100000 32 0⟩] concatenates_S3200000_S100000_S3300000_d0

set_option maxHeartbeats 1000000 in
theorem W1_v5 : Gen.W1 m ρ c (Proc.devRef .tc main_v5) = k5 m c := by
  show StableHlo.after hostOps0 (Gen.W0 m ρ c) (Proc.devRef .tc main_v5) = _
  after_results_simp
  results_rw
  rfl

set_option maxHeartbeats 1000000 in
theorem W1_v6 : Gen.W1 m ρ c (Proc.devRef .tc main_v6) = k6 m c := by
  show StableHlo.after hostOps0 (Gen.W0 m ρ c) (Proc.devRef .tc main_v6) = _
  after_results_simp
  results_rw
  rfl

/-- The degree vector: the scatter-add of ones into zeros at the destination words. -/
abbrev kdeg : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 (k6 m c))
    (broadcastInDim S3300000 ![] bcast_S_S3300000 (constant (F := Ideal) S_ .f32 0x3F800000#32))

set_option maxHeartbeats 1000000 in
theorem W1_v10 : Gen.W1 m ρ c (Proc.devRef .tc main_v10) = kdeg m c := by
  show StableHlo.after hostOps0 (Gen.W0 m ρ c) (Proc.devRef .tc main_v10) = _
  after_results_simp
  results_rw
  rfl

set_option maxHeartbeats 1000000 in
theorem W1_v12 : Gen.W1 m ρ c (Proc.devRef .tc main_v12) =
    cmpf .ogt (kdeg m c) (broadcastInDim S100000 ![] bcast_S_S100000 (constant (F := Ideal) S_ .f32 0x00000000#32)) := by
  show StableHlo.after hostOps0 (Gen.W0 m ρ c) (Proc.devRef .tc main_v12) = _
  after_results_simp
  results_rw
  rfl

set_option maxHeartbeats 1000000 in
theorem W1_v13 : Gen.W1 m ρ c (Proc.devRef .tc main_v13) = Host.rsqrt (kdeg m c) := by
  show StableHlo.after hostOps0 (Gen.W0 m ρ c) (Proc.devRef .tc main_v13) = _
  after_results_simp
  results_rw
  rfl

set_option maxHeartbeats 1000000 in
theorem W1_cst_2 : Gen.W1 m ρ c (Proc.devRef .tc main_cst_2) = constant (F := Ideal) S_ .f32 0x00000000#32 := by
  show StableHlo.after hostOps0 (Gen.W0 m ρ c) (Proc.devRef .tc main_cst_2) = _
  after_results_simp

/-- The inverse square-root degree where(deg > 0, rsqrt deg, 0) (the kernel's literal term). -/
abbrev kdinv : FVec Ideal S100000 .f32 :=
  select (cmpf .ogt (kdeg m c) (broadcastInDim S100000 ![] bcast_S_S100000 (constant (F := Ideal) S_ .f32 0x00000000#32)))
    (Host.rsqrt (kdeg m c)) (broadcastInDim S100000 ![] bcast_S_S100000 (constant (F := Ideal) S_ .f32 0x00000000#32))

set_option maxHeartbeats 1000000 in
theorem W2_v14 : Gen.W2 m ρ c (Proc.devRef .tc main_v14) = kdinv m c := by
  have h12 := W1_v12 m ρ c
  have h13 := W1_v13 m ρ c
  have hc := W1_cst_2 m ρ c
  show StableHlo.after hostOps0_1 (Gen.W1 m ρ c) (Proc.devRef .tc main_v14) = _
  generalize Gen.W1 m ρ c = V at h12 h13 hc ⊢
  after_results_simp
  show select (V (Proc.devRef .tc main_v12) : IVec S100000 1) (V (Proc.devRef .tc main_v13) : FVec Ideal S100000 .f32)
      (broadcastInDim S100000 ![] bcast_S_S100000 (V (Proc.devRef .tc main_cst_2) : FVec Ideal S_ .f32)) = kdinv m c
  rw [h12, h13, hc]

set_option maxHeartbeats 1000000 in
theorem W2_v5 : Gen.W2 m ρ c (Proc.devRef .tc main_v5) = k5 m c := by
  have h := W1_v5 m ρ c
  show StableHlo.after hostOps0_1 (Gen.W1 m ρ c) (Proc.devRef .tc main_v5) = _
  generalize Gen.W1 m ρ c = V at h ⊢
  after_results_simp
  exact h

set_option maxHeartbeats 1000000 in
theorem W2_v6 : Gen.W2 m ρ c (Proc.devRef .tc main_v6) = k6 m c := by
  have h := W1_v6 m ρ c
  show StableHlo.after hostOps0_1 (Gen.W1 m ρ c) (Proc.devRef .tc main_v6) = _
  generalize Gen.W1 m ρ c = V at h ⊢
  after_results_simp
  exact h

/-! ### The kernel's terms are the reference's -/

open Cert.ReferenceIdeal.ReadP in
theorem k5_eq : k5 m c = val_main_v6 (F := Ideal) (x1 m c) := by
  unfold val_main_v6 val_main_v1 val_main_v0 val_main_v5
  rfl

open Cert.ReferenceIdeal.ReadP in
theorem k6_eq : k6 m c = val_main_v7 (F := Ideal) (x1 m c) := by
  unfold val_main_v7 val_main_v3 val_main_v2 val_main_v5
  rfl

open Cert.ReferenceIdeal.ReadP in
theorem kdeg_eq : kdeg m c = val_main_v11 (F := Ideal) (x1 m c) := by
  unfold val_main_v11 val_main_v10 val_main_v9 val_main_v8 val_main_cst val_main_cst_0
  rw [← k6_eq]
  rfl

open Cert.ReferenceIdeal.ReadP in
theorem kdinv_eq : kdinv m c = val_main_v15 (F := Ideal) (x1 m c) := by
  unfold val_main_v15 val_main_v13 val_main_v14 val_main_call0_v1 val_main_call0_v0 val_main_cst_2 val_main_v12 val_main_cst_1
  rw [← kdeg_eq]
  rfl

end Atom

/-! ## The atoms: the buffers after the first two stretches -/

/-- The inverse square-root degree. -/
theorem W2_dinv : Gen.W2 m ρ c (Proc.devRef .tc main_v14)
    = Cert.ReferenceIdeal.ReadP.val_main_v15 (F := Ideal) (m ((c : Thread nD τ).loc main_arg1)) :=
  (Atom.W2_v14 m ρ c).trans (Atom.kdinv_eq m c)

/-- The source words, [3300000]. -/
theorem W2_srcw : Gen.W2 m ρ c (Proc.devRef .tc main_v5)
    = Cert.ReferenceIdeal.ReadP.val_main_v6 (F := Ideal) (m ((c : Thread nD τ).loc main_arg1)) :=
  (Atom.W2_v5 m ρ c).trans (Atom.k5_eq m c)

/-- The destination words, [3300000]. -/
theorem W2_dstw : Gen.W2 m ρ c (Proc.devRef .tc main_v6)
    = Cert.ReferenceIdeal.ReadP.val_main_v7 (F := Ideal) (m ((c : Thread nD τ).loc main_arg1)) :=
  (Atom.W2_v6 m ρ c).trans (Atom.k6_eq m c)

/-- The argument arrays as launched: no host operation of the first two stretches writes one. -/
theorem W2_arg0 : Gen.W2 m ρ c (Proc.devRef .tc main_arg0) = m ((c : Thread nD τ).loc main_arg0) := by
  show StableHlo.after hostOps0_1 (StableHlo.after hostOps0 (Gen.W0 m ρ c)) (Proc.devRef .tc main_arg0) = _
  after_results_simp
theorem W2_arg2 : Gen.W2 m ρ c (Proc.devRef .tc main_arg2) = m ((c : Thread nD τ).loc main_arg2) := by
  show StableHlo.after hostOps0_1 (StableHlo.after hostOps0 (Gen.W0 m ρ c)) (Proc.devRef .tc main_arg2) = _
  after_results_simp
theorem W2_arg3 : Gen.W2 m ρ c (Proc.devRef .tc main_arg3) = m ((c : Thread nD τ).loc main_arg3) := by
  show StableHlo.after hostOps0_1 (StableHlo.after hostOps0 (Gen.W0 m ρ c)) (Proc.devRef .tc main_arg3) = _
  after_results_simp
theorem W2_arg4 : Gen.W2 m ρ c (Proc.devRef .tc main_arg4) = m ((c : Thread nD τ).loc main_arg4) := by
  show StableHlo.after hostOps0_1 (StableHlo.after hostOps0 (Gen.W0 m ρ c)) (Proc.devRef .tc main_arg4) = _
  after_results_simp
theorem W2_arg5 : Gen.W2 m ρ c (Proc.devRef .tc main_arg5) = m ((c : Thread nD τ).loc main_arg5) := by
  show StableHlo.after hostOps0_1 (StableHlo.after hostOps0 (Gen.W0 m ρ c)) (Proc.devRef .tc main_arg5) = _
  after_results_simp
theorem W2_arg6 : Gen.W2 m ρ c (Proc.devRef .tc main_arg6) = m ((c : Thread nD τ).loc main_arg6) := by
  show StableHlo.after hostOps0_1 (StableHlo.after hostOps0 (Gen.W0 m ρ c)) (Proc.devRef .tc main_arg6) = _
  after_results_simp
theorem W2_arg7 : Gen.W2 m ρ c (Proc.devRef .tc main_arg7) = m ((c : Thread nD τ).loc main_arg7) := by
  show StableHlo.after hostOps0_1 (StableHlo.after hostOps0 (Gen.W0 m ρ c)) (Proc.devRef .tc main_arg7) = _
  after_results_simp

end Cert.KernelIdeal.KV
end
-- ==== Proof.KHostB.lean ====
/-
  What the first region is entered with, as functions of the arguments.

  Between the degree computation and the first region the entry function runs one stretch of host operations: it
  scales the node features by `dinv`, gathers the source rows (the source words wrapped into the nodes), sums them into
  the destination rows and scales by `dinv` again — the region's row-blocked input —, and casts the flat bias `b1` to
  one row. The stretch is read first from ANY buffer contents before it, then at the contents the first two stretches
  leave: the node features and the weights as launched, the edge words and `dinv` as functions of the edge argument.
-/
import proofs.«147672_j1675037246076_2_alg».proof.Proof.KValue
import proofs.«147672_j1675037246076_2_alg».proof.Proof.KHost
import Idealize.ShloMosaic.Lib.StableHlo.Run

noncomputable section

namespace Cert.KernelIdeal.KV

open Cert.KernelIdeal Cert.KernelIdeal.Gen
open Idealize.ShloMosaic Idealize.ShloMosaic.TcCoe Idealize.ShloMosaic.ValueIdx Idealize.SL.Sem Idealize.ShloMosaic.StableHlo

/-! ## The stretch before the first region, from any contents `W` -/

section
variable (W : Valuation τ sig (Elt Ideal))

set_option maxHeartbeats 1000000 in
/-- The region's row-blocked input: one aggregation layer of the node features, over the edge words and `dinv` found
    in `W`. -/
theorem pre0_agg : StableHlo.after (hostOps0_2 (F := Ideal)) W (Proc.devRef .tc main_v32)
    = mulf (Host.scatterAdd (F := Ideal) scatter_S100000x16_S3300000x1_S3300000x16_1_0_0_1 (broadcastInDim S100000x16 ![] bcast_S_S100000x16 (constant (F := Ideal) S_ .f32 0x00000000#32)) (broadcastInDim S3300000x1 ![0] bcast_S3300000_S3300000x1_0 (W (Proc.devRef .tc main_v6))) (extf .f32 (Host.gather gather_S100000x16_S3300000x1_S3300000x16_1_0_n_n_0_1_116 (truncf .bf16 (mulf (W (Proc.devRef .tc main_arg0)) (broadcastInDim S100000x16 ![0, 1] bcast_S100000x1_S100000x16_0_1 (broadcastInDim S100000x1 ![0] bcast_S100000_S100000x1_0 (W (Proc.devRef .tc main_v14))))) bitsLt_bf16_f32) (broadcastInDim S3300000x1 ![0] bcast_S3300000_S3300000x1_0 (select (cmpi .slt (W (Proc.devRef .tc main_v5)) (broadcastInDim S3300000 ![] bcast_S_S3300000 (constantI S_ 32 0#32))) (addi (W (Proc.devRef .tc main_v5)) (broadcastInDim S3300000 ![] bcast_S_S3300000 (constantI S_ 32 100000#32))) (W (Proc.devRef .tc main_v5))))) bitsLt_bf16_f32)) (broadcastInDim S100000x16 ![0, 1] bcast_S100000x1_S100000x16_0_1 (broadcastInDim S100000x1 ![0] bcast_S100000_S100000x1_0 (W (Proc.devRef .tc main_v14)))) := by
  after_results_simp

set_option maxHeartbeats 1000000 in
/-- The stretch writes neither weight matrix. -/
theorem pre0_w1 : StableHlo.after (hostOps0_2 (F := Ideal)) W (Proc.devRef .tc main_arg2) = W (Proc.devRef .tc main_arg2) := by
  after_results_simp

set_option maxHeartbeats 1000000 in
theorem pre0_w2 : StableHlo.after (hostOps0_2 (F := Ideal)) W (Proc.devRef .tc main_arg4) = W (Proc.devRef .tc main_arg4) := by
  after_results_simp

set_option maxHeartbeats 1000000 in
/-- The one-row bias is the flat bias cast to `[1, 48]`. -/
theorem pre0_b1 : StableHlo.after (hostOps0_2 (F := Ideal)) W (Proc.devRef .tc main_v33)
    = shapeCast S1x48 (W (Proc.devRef .tc main_arg3)) shapeCasts_S48_S1x48 := by
  after_results_simp
  rfl

end

/-! ## The edge words as the two programs spell them -/

/-- The source words wrapped into the nodes and set as a column: the same term in both programs. -/
theorem srcW_lit (x1 : IVec ⟨2, ![2, 3200000]⟩ 32) :
    broadcastInDim S3300000x1 ![0] bcast_S3300000_S3300000x1_0
        (select (cmpi .slt (Cert.ReferenceIdeal.ReadP.val_main_v6 (F := Ideal) x1) (broadcastInDim S3300000 ![] bcast_S_S3300000 (constantI S_ 32 0#32)))
          (addi (Cert.ReferenceIdeal.ReadP.val_main_v6 (F := Ideal) x1) (broadcastInDim S3300000 ![] bcast_S_S3300000 (constantI S_ 32 100000#32)))
          (Cert.ReferenceIdeal.ReadP.val_main_v6 (F := Ideal) x1))
      = Cert.ReferenceIdeal.ReadP.val_main_v36 (F := Ideal) x1 := rfl

/-- The destination words set as a column: the same term in both programs. -/
theorem dstW_lit (x1 : IVec ⟨2, ![2, 3200000]⟩ 32) :
    broadcastInDim S3300000x1 ![0] bcast_S3300000_S3300000x1_0 (Cert.ReferenceIdeal.ReadP.val_main_v7 (F := Ideal) x1)
      = Cert.ReferenceIdeal.ReadP.val_main_v42 (F := Ideal) x1 := rfl

/-! ## At the contents the first two stretches leave -/

section
variable (m : (ℓ : Loc nD τ sig) → Buf (Elt Ideal) ℓ) (ρ : Dev nD → PrngReg) (c : Dev nD)

/-- THE FIRST REGION'S ROW-BLOCKED INPUT: one aggregation layer of the node features as launched. -/
theorem entry0_agg : Gen.V3 m ρ c (Pipeline.arrRef spec0 0)
    = mulf (Host.scatterAdd (F := Ideal) scatter_S100000x16_S3300000x1_S3300000x16_1_0_0_1 (broadcastInDim S100000x16 ![] bcast_S_S100000x16 (constant (F := Ideal) S_ .f32 0x00000000#32)) (dstW m c) (extf .f32 (Host.gather gather_S100000x16_S3300000x1_S3300000x16_1_0_n_n_0_1_116 (truncf .bf16 (mulf (arg0 m c) (broadcastInDim S100000x16 ![0, 1] bcast_S100000x1_S100000x16_0_1 (broadcastInDim S100000x1 ![0] bcast_S100000_S100000x1_0 (dinvV m c)))) bitsLt_bf16_f32) (srcW m c)) bitsLt_bf16_f32)) (broadcastInDim S100000x16 ![0, 1] bcast_S100000x1_S100000x16_0_1 (broadcastInDim S100000x1 ![0] bcast_S100000_S100000x1_0 (dinvV m c))) := by
  show StableHlo.after hostOps0_2 (Gen.W2 m ρ c) (Proc.devRef .tc main_v32) = _
  refine (pre0_agg (Gen.W2 m ρ c)).trans ?_
  rw [W2_dinv m ρ c, W2_srcw m ρ c, W2_dstw m ρ c, W2_arg0 m ρ c, srcW_lit, dstW_lit]

/-- Its weight matrices are the arguments as launched, -/
theorem entry0_w1 : Gen.V3 m ρ c (Pipeline.arrRef spec0 1) = arg2 m c := by
  show StableHlo.after hostOps0_2 (Gen.W2 m ρ c) (Proc.devRef .tc main_arg2) = _
  exact (pre0_w1 (Gen.W2 m ρ c)).trans (W2_arg2 m ρ c)

theorem entry0_w2 : Gen.V3 m ρ c (Pipeline.arrRef spec0 3) = arg4 m c := by
  show StableHlo.after hostOps0_2 (Gen.W2 m ρ c) (Proc.devRef .tc main_arg4) = _
  exact (pre0_w2 (Gen.W2 m ρ c)).trans (W2_arg4 m ρ c)

/-- and its one-row bias the flat bias as launched, cast to one row. -/
theorem entry0_b1 : Gen.V3 m ρ c (Pipeline.arrRef spec0 2) = shapeCast S1x48 (arg3 m c) shapeCasts_S48_S1x48 := by
  show StableHlo.after hostOps0_2 (Gen.W2 m ρ c) (Proc.devRef .tc main_v33) = _
  refine (pre0_b1 (Gen.W2 m ρ c)).trans ?_
  rw [W2_arg3 m ρ c]

end

end Cert.KernelIdeal.KV

end
-- ==== Proof.KHostC.lean ====
/-
  THE SECOND REGION'S INPUT ARRAYS AT ITS ENTRY. The third stretch of host operations writes none of the source
  words, the destination words, the inverse square-root degree or the last three arguments, and the first region
  leaves every buffer but its five arrays as entered; so at the second region's entry they hold what they held after
  the first two stretches. Read over them, the fourth stretch gives the second region's row-blocked input as one
  aggregation layer (scale by dinv, round to bf16, gather at the wrapped source words, scatter-add at the destination
  words, scale by dinv) of the first region's output array, and its bias rows and weight matrix as the arguments.
-/
import proofs.«147672_j1675037246076_2_alg».proof.Proof.KHost
import proofs.«147672_j1675037246076_2_alg».proof.Proof.KValue

set_option maxRecDepth 16384

noncomputable section

namespace Cert.KernelIdeal.KV

open Cert.KernelIdeal Cert.KernelIdeal.Gen Idealize.ShloMosaic Idealize.ShloMosaic.StableHlo
open Idealize.ShloMosaic.TcCoe Idealize.SL.Sem

variable (m : (ℓ : Loc nD τ sig) → Buf (Elt Ideal) ℓ) (ρ : Dev nD → PrngReg) (c : Dev nD)

namespace AtomC

/-! ### The atoms carried to region 1's entry: the third stretch writes none of them, and region 0 leaves every
    buffer but its five arrays as entered -/

set_option maxHeartbeats 1000000 in
theorem W3_dinv : Gen.W3 m ρ c (Proc.devRef .tc main_v14) = dinvV m c := by
  have h := W2_dinv m ρ c
  show StableHlo.after hostOps0_2 (Gen.W2 m ρ c) (Proc.devRef .tc main_v14) = _
  generalize Gen.W2 m ρ c = V at h ⊢
  after_results_simp
  exact h

set_option maxHeartbeats 1000000 in
theorem W3_srcw : Gen.W3 m ρ c (Proc.devRef .tc main_v5) = Cert.ReferenceIdeal.ReadP.val_main_v6 (F := Ideal) (arg1 m c) := by
  have h := W2_srcw m ρ c
  show StableHlo.after hostOps0_2 (Gen.W2 m ρ c) (Proc.devRef .tc main_v5) = _
  generalize Gen.W2 m ρ c = V at h ⊢
  after_results_simp
  exact h

set_option maxHeartbeats 1000000 in
theorem W3_dstw : Gen.W3 m ρ c (Proc.devRef .tc main_v6) = Cert.ReferenceIdeal.ReadP.val_main_v7 (F := Ideal) (arg1 m c) := by
  have h := W2_dstw m ρ c
  show StableHlo.after hostOps0_2 (Gen.W2 m ρ c) (Proc.devRef .tc main_v6) = _
  generalize Gen.W2 m ρ c = V at h ⊢
  after_results_simp
  exact h

set_option maxHeartbeats 1000000 in
theorem W3_arg5 : Gen.W3 m ρ c (Proc.devRef .tc main_arg5) = arg5 m c := by
  have h := W2_arg5 m ρ c
  show StableHlo.after hostOps0_2 (Gen.W2 m ρ c) (Proc.devRef .tc main_arg5) = _
  generalize Gen.W2 m ρ c = V at h ⊢
  after_results_simp
  exact h

set_option maxHeartbeats 1000000 in
theorem W3_arg6 : Gen.W3 m ρ c (Proc.devRef .tc main_arg6) = arg6 m c := by
  have h := W2_arg6 m ρ c
  show StableHlo.after hostOps0_2 (Gen.W2 m ρ c) (Proc.devRef .tc main_arg6) = _
  generalize Gen.W2 m ρ c = V at h ⊢
  after_results_simp
  exact h

set_option maxHeartbeats 1000000 in
theorem W3_arg7 : Gen.W3 m ρ c (Proc.devRef .tc main_arg7) = arg7 m c := by
  have h := W2_arg7 m ρ c
  show StableHlo.after hostOps0_2 (Gen.W2 m ρ c) (Proc.devRef .tc main_arg7) = _
  generalize Gen.W2 m ρ c = V at h ⊢
  after_results_simp
  exact h

theorem W4_dinv : Gen.W4 m ρ c (Proc.devRef .tc main_v14) = dinvV m c :=
  (Gen.W4_of_ne m ρ c main_v14 (by decide)).trans (W3_dinv m ρ c)
theorem W4_srcw : Gen.W4 m ρ c (Proc.devRef .tc main_v5) = Cert.ReferenceIdeal.ReadP.val_main_v6 (F := Ideal) (arg1 m c) :=
  (Gen.W4_of_ne m ρ c main_v5 (by decide)).trans (W3_srcw m ρ c)
theorem W4_dstw : Gen.W4 m ρ c (Proc.devRef .tc main_v6) = Cert.ReferenceIdeal.ReadP.val_main_v7 (F := Ideal) (arg1 m c) :=
  (Gen.W4_of_ne m ρ c main_v6 (by decide)).trans (W3_dstw m ρ c)
theorem W4_arg5 : Gen.W4 m ρ c (Proc.devRef .tc main_arg5) = arg5 m c :=
  (Gen.W4_of_ne m ρ c main_arg5 (by decide)).trans (W3_arg5 m ρ c)
theorem W4_arg6 : Gen.W4 m ρ c (Proc.devRef .tc main_arg6) = arg6 m c :=
  (Gen.W4_of_ne m ρ c main_arg6 (by decide)).trans (W3_arg6 m ρ c)
theorem W4_arg7 : Gen.W4 m ρ c (Proc.devRef .tc main_arg7) = arg7 m c :=
  (Gen.W4_of_ne m ρ c main_arg7 (by decide)).trans (W3_arg7 m ρ c)

/-! ### The kernel's index words are the reference's -/

open Cert.ReferenceIdeal.ReadP in
/-- The source words wrapped (a negative word taken modulo the node count) and broadcast to a column. -/
theorem srcw_eq : broadcastInDim S3300000x1 ![0] bcast_S3300000_S3300000x1_0
      (select (cmpi .slt (val_main_v6 (F := Ideal) (arg1 m c)) (broadcastInDim S3300000 ![] bcast_S_S3300000 (constantI S_ 32 0#32)))
        (addi (val_main_v6 (F := Ideal) (arg1 m c)) (broadcastInDim S3300000 ![] bcast_S_S3300000 (constantI S_ 32 100000#32)))
        (val_main_v6 (F := Ideal) (arg1 m c))) = srcW m c := by
  unfold srcW val_main_v36 val_main_v35 val_main_v32 val_main_v34 val_main_v31 val_main_v33 val_main_c_6 val_main_c_7
  rfl

open Cert.ReferenceIdeal.ReadP in
/-- The destination words broadcast to a column. -/
theorem dstw_eq : broadcastInDim S3300000x1 ![0] bcast_S3300000_S3300000x1_0 (val_main_v7 (F := Ideal) (arg1 m c)) = dstW m c := by
  unfold dstW val_main_v42
  rfl

end AtomC

/-! ## Region 1's input arrays at its entry -/

set_option maxHeartbeats 2000000 in
/-- Window 0: one aggregation layer of region 0's output array. -/
theorem entry1_agg : Gen.V5 m ρ c (Pipeline.arrRef spec1 0) =
    mulf (Host.scatterAdd (F := Ideal) scatter_S100000x32_S3300000x1_S3300000x32_1_0_0_1
        (broadcastInDim S100000x32 ![] bcast_S_S100000x32 (constant (F := Ideal) S_ .f32 0x00000000#32)) (dstW m c)
        (extf .f32 (Host.gather gather_S100000x32_S3300000x1_S3300000x32_1_0_n_n_0_1_132
          (truncf .bf16 (mulf (Gen.W4 m ρ c (Proc.devRef .tc main_v34))
            (broadcastInDim S100000x32 ![0, 1] bcast_S100000x1_S100000x32_0_1
              (broadcastInDim S100000x1 ![0] bcast_S100000_S100000x1_0 (dinvV m c)))) bitsLt_bf16_f32) (srcW m c)) bitsLt_bf16_f32))
      (broadcastInDim S100000x32 ![0, 1] bcast_S100000x1_S100000x32_0_1
        (broadcastInDim S100000x1 ![0] bcast_S100000_S100000x1_0 (dinvV m c))) := by
  have h14 := AtomC.W4_dinv m ρ c
  have h5 := AtomC.W4_srcw m ρ c
  have h6 := AtomC.W4_dstw m ρ c
  show StableHlo.after hostOps1 (Gen.W4 m ρ c) (Proc.devRef .tc main_v52) = _
  generalize hV : Gen.W4 m ρ c = V at h14 h5 h6 ⊢
  after_results_simp
  rw [h14, h5, h6, AtomC.srcw_eq, AtomC.dstw_eq]

set_option maxHeartbeats 1000000 in
/-- Window 1: the second bias as one row. -/
theorem entry1_b2 : Gen.V5 m ρ c (Pipeline.arrRef spec1 1) = shapeCast S1x32 (arg5 m c) shapeCasts_S32_S1x32 := by
  have h := AtomC.W4_arg5 m ρ c
  show StableHlo.after hostOps1 (Gen.W4 m ρ c) (Proc.devRef .tc main_v53) = _
  generalize Gen.W4 m ρ c = V at h ⊢
  after_results_simp
  rw [h]
  rfl

set_option maxHeartbeats 1000000 in
/-- Window 2: the last weight matrix. -/
theorem entry1_wfc : Gen.V5 m ρ c (Pipeline.arrRef spec1 2) = arg6 m c := by
  have h := AtomC.W4_arg6 m ρ c
  show StableHlo.after hostOps1 (Gen.W4 m ρ c) (Proc.devRef .tc main_arg6) = _
  generalize Gen.W4 m ρ c = V at h ⊢
  after_results_simp
  exact h

set_option maxHeartbeats 1000000 in
/-- Window 3: the last bias as one row. -/
theorem entry1_bfc : Gen.V5 m ρ c (Pipeline.arrRef spec1 3) = shapeCast S1x16 (arg7 m c) shapeCasts_S16_S1x16 := by
  have h := AtomC.W4_arg7 m ρ c
  show StableHlo.after hostOps1 (Gen.W4 m ρ c) (Proc.devRef .tc main_v54) = _
  generalize Gen.W4 m ρ c = V at h ⊢
  after_results_simp
  rw [h]
  rfl

end Cert.KernelIdeal.KV
end
-- ==== Proof.KResult.lean ====
/-
  The kernel's result array, as the first arrangement of the graph convolution applied to the launch arrays: the
  composition of KValue.lean at what the two regions are entered with (KHostB.lean, KHostC.lean).
-/
import proofs.«147672_j1675037246076_2_alg».proof.Proof.KValue
import proofs.«147672_j1675037246076_2_alg».proof.Proof.KHostB
import proofs.«147672_j1675037246076_2_alg».proof.Proof.KHostC

noncomputable section

namespace Cert.KernelIdeal.KV

open Cert.KernelIdeal Cert.KernelIdeal.Gen
open Idealize.ShloMosaic Idealize.ShloMosaic.TcCoe Idealize.SL.Sem

/-- THE KERNEL'S RESULT: after the run the result array is `aggThenDense` of the eight arguments as launched, with the
    edge words and `dinv` the terms of the edge argument that the reference program also computes. -/
theorem kernel_value (m : (ℓ : Loc nD τ sig) → Buf (Elt Ideal) ℓ) (ρ : Dev nD → PrngReg) (c : Dev nD) :
    Gen.W6 m ρ c (Proc.devRef .tc main_v55)
      = Cert.Gcn.aggThenDense (arg0 m c) (arg2 m c) (Cert.Gcn.rowOf (arg3 m c)) (arg4 m c) (Cert.Gcn.rowOf (arg5 m c))
          (arg6 m c) (Cert.Gcn.rowOf (arg7 m c)) (srcW m c) (dstW m c) (dinvV m c) :=
  kernel_value_of m ρ c (entry0_agg m ρ c) (entry0_w1 m ρ c) (entry0_b1 m ρ c) (entry0_w2 m ρ c)
    (entry1_agg m ρ c) (entry1_b2 m ρ c) (entry1_wfc m ρ c) (entry1_bfc m ρ c)

end Cert.KernelIdeal.KV

end
-- ==== Proof.RefValue.lean ====
/-
  The reference program's result, read as the second arrangement of Spec.lean.

  Its run ends with the result array at the composed term of its operations; that term is
  `relu(aggR(relu(aggR(x·W1) + b1)·W2) + b2)·Wfc + bfc` with the source words, the destination words, their
  wrapped form and `dinv` the program's own terms of the edge array. The second layer recomputes the degree, the
  self-loops and the wrapped words by the same operations as the first: the same terms.
-/
import proofs.«147672_j1675037246076_2_alg».proof.Proof.RefRead
import proofs.«147672_j1675037246076_2_alg».proof.Proof.Layer
import Idealize.ShloMosaic.Lib.Affine

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.Gcn

variable (x0 : FVec Ideal S100000x16 .f32) (x1 : IVec S2x3200000 32) (x2 : FVec Ideal S16x48 .f32)
  (x3 : FVec Ideal S48 .f32) (x4 : FVec Ideal S48x32 .f32) (x5 : FVec Ideal S32 .f32) (x6 : FVec Ideal S32x16 .f32)
  (x7 : FVec Ideal S16 .f32)

/-! ## The words and the weights of the two layers are the same terms -/

theorem srcWords_norm : val_main_v21 (F := Ideal) x1 = val_main_v36 (F := Ideal) x1 := rfl
theorem srcWords2 : val_main_v80 (F := Ideal) x1 = val_main_v36 (F := Ideal) x1 := rfl
theorem srcWords2_norm : val_main_v65 (F := Ideal) x1 = val_main_v36 (F := Ideal) x1 := rfl
theorem dstWords2 : val_main_v86 (F := Ideal) x1 = val_main_v42 (F := Ideal) x1 := rfl
theorem dstWrapped2 : val_main_v72 (F := Ideal) x1 = val_main_v28 (F := Ideal) x1 := rfl
theorem dinv2 : val_main_v59 (F := Ideal) x1 = val_main_v15 (F := Ideal) x1 := rfl

/-! ## The dense products -/

theorem lin1_eq : val_main_v4 (F := Ideal) x0 x2 = lin x0 x2 := by
  funext i
  rw [val_main_v4_apply]
  refine Finset.sum_congr rfl fun k _ => ?_
  have el : lidx_main_v4 i k = ix2 (i 0) k := funext fun a => match a with | ⟨0, _⟩ => rfl | ⟨1, _⟩ => rfl
  have er : ridx_main_v4 i k = ix2 k (i 1) := funext fun a => match a with | ⟨0, _⟩ => rfl | ⟨1, _⟩ => rfl
  rw [el, er]
  rfl

/-! ## Layer one -/

theorem agg1_eq : val_main_v43 (F := Ideal) x0 x1 x2
    = aggR (val_main_v36 (F := Ideal) x1) (val_main_v42 (F := Ideal) x1) (val_main_v28 (F := Ideal) x1)
        (val_main_v15 (F := Ideal) x1) (lin x0 x2) := by
  unfold val_main_v43 val_main_v40 val_main_v37 val_main_v39 val_main_v38 val_main_v30 val_main_v22 val_main_v29
    val_main_v41 val_main_cst_8
  rw [lin1_eq]
  exact refAgg_eq _ _ _ _ _ _ (lin x0 x2) (val_main_v36 (F := Ideal) x1) (val_main_v21 (F := Ideal) x1)
    (val_main_v42 (F := Ideal) x1) (val_main_v28 (F := Ideal) x1) (val_main_v15 (F := Ideal) x1) (srcWords_norm x1)

theorem relu1_eq : val_main_v47 (F := Ideal) x0 x1 x2 x3
    = reluBias (val_main_v43 (F := Ideal) x0 x1 x2) (val_main_v44 (F := Ideal) x3) := by
  funext i
  rw [val_main_v47_apply, val_main_v46_apply, val_main_v45_apply, val_main_call1_v0_apply, val_main_call1_cst_apply]
  have e : idx_main_v45 i = ix2 (0 : Fin 1) (i 1) := funext fun a => match a with | ⟨0, _⟩ => rfl | ⟨1, _⟩ => rfl
  rw [e]
  show max (_ + _) (Ideal.ofBits .f32 0x00000000#32) = _
  rw [Ideal.ofBits_zero_f32]
  rfl

theorem lin2_eq : val_main_v48 (F := Ideal) x0 x1 x2 x3 x4 = lin (val_main_v47 (F := Ideal) x0 x1 x2 x3) x4 := by
  funext i
  rw [val_main_v48_apply]
  refine Finset.sum_congr rfl fun k _ => ?_
  have el : lidx_main_v48 i k = ix2 (i 0) k := funext fun a => match a with | ⟨0, _⟩ => rfl | ⟨1, _⟩ => rfl
  have er : ridx_main_v48 i k = ix2 k (i 1) := funext fun a => match a with | ⟨0, _⟩ => rfl | ⟨1, _⟩ => rfl
  rw [el, er]
  rfl

theorem hidden_eq : val_main_v48 (F := Ideal) x0 x1 x2 x3 x4
    = hidden x0 x2 (val_main_v44 (F := Ideal) x3) x4 (val_main_v36 (F := Ideal) x1) (val_main_v42 (F := Ideal) x1)
        (val_main_v28 (F := Ideal) x1) (val_main_v15 (F := Ideal) x1) := by
  rw [lin2_eq, relu1_eq, agg1_eq]
  rfl

/-! ## Layer two -/

theorem agg2_eq : val_main_v87 (F := Ideal) x0 x1 x2 x3 x4
    = aggR (val_main_v36 (F := Ideal) x1) (val_main_v42 (F := Ideal) x1) (val_main_v28 (F := Ideal) x1)
        (val_main_v15 (F := Ideal) x1) (val_main_v48 (F := Ideal) x0 x1 x2 x3 x4) := by
  unfold val_main_v87 val_main_v84 val_main_v81 val_main_v83 val_main_v82 val_main_v74 val_main_v66 val_main_v73
    val_main_v85 val_main_cst_19
  rw [srcWords2, dstWords2, dstWrapped2, dinv2]
  exact refAgg_eq _ _ _ _ _ _ (val_main_v48 (F := Ideal) x0 x1 x2 x3 x4) (val_main_v36 (F := Ideal) x1)
    (val_main_v65 (F := Ideal) x1) (val_main_v42 (F := Ideal) x1) (val_main_v28 (F := Ideal) x1)
    (val_main_v15 (F := Ideal) x1) (srcWords2_norm x1)

theorem relu2_eq : val_main_v91 (F := Ideal) x0 x1 x2 x3 x4 x5
    = reluBias (val_main_v87 (F := Ideal) x0 x1 x2 x3 x4) (val_main_v88 (F := Ideal) x5) := by
  funext i
  rw [val_main_v91_apply, val_main_v90_apply, val_main_v89_apply, val_main_call3_v0_apply, val_main_call3_cst_apply]
  have e : idx_main_v89 i = ix2 (0 : Fin 1) (i 1) := funext fun a => match a with | ⟨0, _⟩ => rfl | ⟨1, _⟩ => rfl
  rw [e]
  show max (_ + _) (Ideal.ofBits .f32 0x00000000#32) = _
  rw [Ideal.ofBits_zero_f32]
  rfl

theorem lin3_eq : val_main_v92 (F := Ideal) x0 x1 x2 x3 x4 x5 x6
    = lin (val_main_v91 (F := Ideal) x0 x1 x2 x3 x4 x5) x6 := by
  funext i
  rw [val_main_v92_apply]
  refine Finset.sum_congr rfl fun k _ => ?_
  have el : lidx_main_v92 i k = ix2 (i 0) k := funext fun a => match a with | ⟨0, _⟩ => rfl | ⟨1, _⟩ => rfl
  have er : ridx_main_v92 i k = ix2 k (i 1) := funext fun a => match a with | ⟨0, _⟩ => rfl | ⟨1, _⟩ => rfl
  rw [el, er]
  rfl

/-- THE REFERENCE'S RESULT is the second arrangement, at the program's own words and weights of the edge array. -/
theorem result_eq : val_main_v95 (F := Ideal) x0 x1 x2 x3 x4 x5 x6 x7
    = denseThenAgg x0 x2 (val_main_v44 (F := Ideal) x3) x4 (val_main_v88 (F := Ideal) x5) x6 (val_main_v93 (F := Ideal) x7)
        (val_main_v36 (F := Ideal) x1) (val_main_v42 (F := Ideal) x1) (val_main_v28 (F := Ideal) x1)
        (val_main_v15 (F := Ideal) x1) := by
  funext i
  rw [val_main_v95_apply, val_main_v94_apply, lin3_eq, relu2_eq, agg2_eq, hidden_eq]
  have e : idx_main_v94 i = ix2 (0 : Fin 1) (i 1) := funext fun a => match a with | ⟨0, _⟩ => rfl | ⟨1, _⟩ => rfl
  rw [e]
  rfl

/-! ## The biases as one-row arrays -/

theorem bias1_eq : val_main_v44 (F := Ideal) x3 = rowOf x3 := by
  funext i
  rw [val_main_v44_apply]
  have e : idx_main_v44 i = ix1 (i 1) := funext fun a => match a with | ⟨0, _⟩ => rfl
  rw [e]
  rfl

theorem bias2_eq : val_main_v88 (F := Ideal) x5 = rowOf x5 := by
  funext i
  rw [val_main_v88_apply]
  have e : idx_main_v88 i = ix1 (i 1) := funext fun a => match a with | ⟨0, _⟩ => rfl
  rw [e]
  rfl

theorem bias3_eq : val_main_v93 (F := Ideal) x7 = rowOf x7 := by
  funext i
  rw [val_main_v93_apply]
  have e : idx_main_v93 i = ix1 (i 1) := funext fun a => match a with | ⟨0, _⟩ => rfl
  rw [e]
  rfl

/-! ## An edge into a node reads that node through its wrapped destination word -/

theorem dst_row (e : Fin 3300000) (v : Fin 100000)
    (h : wordAt (val_main_v42 (F := Ideal) x1) e = (v.val : Int)) : src (val_main_v28 (F := Ideal) x1) e = v := by
  refine rowAt_of_wordAt nodes_pos _ e v ?_
  have e42 : idx_main_v42 (ix2 e (0 : Fin 1)) = ix1 e := funext fun a => match a with | ⟨0, _⟩ => rfl
  have e28 : idx_main_v28 (ix2 e (0 : Fin 1)) = ix1 e := funext fun a => match a with | ⟨0, _⟩ => rfl
  unfold wordAt at h ⊢
  rw [val_main_v42_apply, e42] at h
  rw [val_main_v28_apply, e28, val_main_v27_apply]
  have hc : val_main_v24 (F := Ideal) x1 (ix1 e) = 0#1 := by
    refine eq_zero_of_ne_one fun h1 => ?_
    have h2 : IntOp.cmpi .slt (val_main_v7 (F := Ideal) x1 (ix1 e)) (val_main_v23 (F := Ideal) (ix1 e)) = 1#1 := h1
    rw [IntOp.cmpi_slt] at h2
    have h3 : (val_main_v23 (F := Ideal) (ix1 e)).toInt = 0 := by
      rw [val_main_v23_apply, val_main_c_4_apply]; rfl
    rw [h3, h] at h2
    omega
  rw [hc, select_zero, h]

end Cert.ReferenceIdeal.RefValue

end
-- ==== Proof.Finite.lean ====
/-
  FINITENESS OF THE INPUTS. The precondition computes, for each of the seven float arguments v, the bit
  all(|v| < +∞): the absolute value max v (-v) entry by entry, the comparison with the word 0x7F800000 (which
  denotes +∞), the reduction of the comparison bits by `and` over every axis from the constant 1, and the `and` of
  the seven results. The claim is stated where that bit is 1. Read back: every one of the seven reductions is 1, so
  every comparison bit is 1 (a reduction by `and` that is 1 met only 1s), so every entry is a real number: in the
  extended reals |⊤| = |⊥| = ⊤, which is not below ⊤.
-/
import proofs.«147672_j1675037246076_2_alg».proof.Pre_finite_inputs
import Idealize.ShloMosaic.PureOps.Ideal
import Idealize.ShloMosaic.Lib.ValueIdx
import Idealize.ShloMosaic.Lib.ReduceAll

noncomputable section

namespace Cert.Gcn.Finite

open Idealize.ShloMosaic Cert.Pre_finite_inputs

/-- The rank-0 shape has one index. -/
instance : Subsingleton S_.Idx := ⟨fun a b => funext fun d => d.elim0⟩

/-- The word 0x7F800000 denotes +∞. -/
theorem inf_eq_top : Ideal.ofBits .f32 0x7F800000#32 = (⊤ : EReal) := by
  simp [Ideal.ofBits, Ideal.ieee]

/-- The comparison |v| < +∞ gives the bit 1 only at a real number: at ⊤ and at ⊥ the absolute value
    max v (-v) is ⊤, which is not below ⊤. -/
theorem real_of_abs_lt_inf (v : EReal)
    (h : FloatOps.cmpf (F := Ideal) (φ := .f32) .olt (FloatOps.hostAbsf (F := Ideal) (φ := .f32) v)
      (Ideal.ofBits .f32 0x7F800000#32) = 1#1) : ∃ r : ℝ, v = (r : EReal) := by
  rw [inf_eq_top] at h
  induction v using EReal.rec with
  | bot =>
    exfalso
    change Ideal.cmp .olt (max (⊥ : EReal) (-⊥)) ⊤ = 1#1 at h
    simp [Ideal.cmp] at h
  | coe r => exact ⟨r, rfl⟩
  | top =>
    exfalso
    change Ideal.cmp .olt (max (⊤ : EReal) (-⊤)) ⊤ = 1#1 at h
    simp [Ideal.cmp] at h

/-- all(|v| < +∞) = 1, as the reduction by and of the comparison bits over every axis, says every
    entry of v is a real number. The reduction is read back entry by entry, never evaluated. -/
theorem all_real {s : Shape} {axes : List (Fin s.rank)} (v : FVec Ideal s .f32)
    (hb : S_.BroadcastsInDim s (![] : Fin 0 → Fin s.rank)) (hr : s.ReducesTo axes S_) (hu : 0 < S_.numel)
    (h : Host.reduce IntOp.andi
        (cmpf .olt (Host.absf v) (broadcastInDim s ![] hb (constant (F := Ideal) S_ .f32 0x7F800000#32)))
        (constantI S_ 1 1#1) hr hu ValueIdx.ix0 = 1#1) :
    ∀ i, ∃ r : ℝ, v i = (r : EReal) := by
  intro i
  have hi := Host.reduce_andi_all _ _ hr hu _ h i
  exact real_of_abs_lt_inf (v i) hi

/-- THE PRECONDITION DECODED: where `finite_inputs` is 1, every entry of every float argument is a real number. -/
theorem finite_of_pre [hP : Cert.Pre_finite_inputs.Facts] (x : FVec Ideal S100000x16 .f32) (e : IVec S2x3200000 32) (w1 : FVec Ideal S16x48 .f32)
    (b1 : FVec Ideal S48 .f32) (w2 : FVec Ideal S48x32 .f32) (b2 : FVec Ideal S32 .f32)
    (wfc : FVec Ideal S32x16 .f32) (bfc : FVec Ideal S16 .f32)
    (h : Cert.Pre_finite_inputs.fn (F := Ideal) x e w1 b1 w2 b2 wfc bfc = fun _ => 1#1) :
    (∀ i, ∃ r : ℝ, x i = (r : EReal)) ∧ (∀ i, ∃ r : ℝ, w1 i = (r : EReal)) ∧ (∀ i, ∃ r : ℝ, b1 i = (r : EReal))
      ∧ (∀ i, ∃ r : ℝ, w2 i = (r : EReal)) ∧ (∀ i, ∃ r : ℝ, b2 i = (r : EReal))
      ∧ (∀ i, ∃ r : ℝ, wfc i = (r : EReal)) ∧ (∀ i, ∃ r : ℝ, bfc i = (r : EReal)) := by
  have h0 := congrFun h ValueIdx.ix0
  dsimp only [fn, fn_part1] at h0
  obtain ⟨h0, hbfc⟩ := IntOp.andi_eq_one.1 h0
  obtain ⟨h0, hwfc⟩ := IntOp.andi_eq_one.1 h0
  obtain ⟨h0, hb2⟩ := IntOp.andi_eq_one.1 h0
  obtain ⟨h0, hw2⟩ := IntOp.andi_eq_one.1 h0
  obtain ⟨h0, hb1⟩ := IntOp.andi_eq_one.1 h0
  obtain ⟨hx, hw1⟩ := IntOp.andi_eq_one.1 h0
  exact ⟨all_real x _ _ _ hx, all_real w1 _ _ _ hw1, all_real b1 _ _ _ hb1, all_real w2 _ _ _ hw2,
    all_real b2 _ _ _ hb2, all_real wfc _ _ _ hwfc, all_real bfc _ _ _ hbfc⟩

/-! ## The inverse square-root degree is a real number -/

/-- The word 0x00000000 denotes 0. -/
theorem zero_eq : Ideal.ofBits .f32 0x00000000#32 = (0 : EReal) := by
  simp [Ideal.ofBits, Ideal.ieee]

/-- where(d > 0, rsqrt d, 0) at a real d: 1/√d where d is positive, 0 elsewhere; a real number either way
    (the ⊤ that rsqrt gives at 0 is not selected). -/
theorem dinv_coe (r : ℝ) :
    Scalar.select (FloatOps.cmpf (F := Ideal) (φ := .f32) .ogt (r : EReal) (Ideal.ofBits .f32 0x00000000#32))
        (FloatOps.hostUnary (F := Ideal) (φ := .f32) .rsqrt (r : EReal)) (Ideal.ofBits .f32 0x00000000#32)
      = ((if 0 < r then (Real.sqrt r)⁻¹ else 0 : ℝ) : EReal) := by
  rw [zero_eq]
  change Scalar.select (Ideal.cmp .ogt (r : EReal) 0) (Ideal.rsqrt (r : EReal)) 0 = _
  by_cases hr : 0 < r
  · have hc : Ideal.cmp .ogt (r : EReal) 0 = 1#1 := by
      simp [Ideal.cmp, hr]
    rw [hc, if_pos hr]
    have hv : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    rw [hv]
    rfl
  · have hc : Ideal.cmp .ogt (r : EReal) 0 = 0#1 := by
      simp [Ideal.cmp, hr]
    rw [hc, if_neg hr]
    rfl

/-- where(d > 0, rsqrt d, 0) is a real number wherever d is one — in particular at a degree, a natural number. -/
theorem dinv_real (d : EReal) (hd : ∃ r : ℝ, d = (r : EReal)) :
    ∃ r : ℝ, Scalar.select (FloatOps.cmpf (F := Ideal) (φ := .f32) .ogt d (Ideal.ofBits .f32 0x00000000#32))
        (FloatOps.hostUnary (F := Ideal) (φ := .f32) .rsqrt d) (Ideal.ofBits .f32 0x00000000#32) = (r : EReal) := by
  obtain ⟨r, rfl⟩ := hd
  exact ⟨_, dinv_coe r⟩

/-- At a natural-number degree n: 1/√n where n is positive, 0 at n = 0. -/
theorem dinv_nat (n : ℕ) :
    Scalar.select (FloatOps.cmpf (F := Ideal) (φ := .f32) .ogt (((n : ℕ) : ℝ) : EReal) (Ideal.ofBits .f32 0x00000000#32))
        (FloatOps.hostUnary (F := Ideal) (φ := .f32) .rsqrt (((n : ℕ) : ℝ) : EReal)) (Ideal.ofBits .f32 0x00000000#32)
      = ((if 0 < n then (Real.sqrt n)⁻¹ else 0 : ℝ) : EReal) := by
  rw [dinv_coe]
  simp only [Nat.cast_pos]

/-- The same read at one index of the vectors: select (cmpf .ogt deg zeros) (Host.rsqrt deg) zeros' at i, where
    zeros and zeros' hold the word 0x00000000 at i, is a real number wherever deg i is one. -/
theorem dinv_real_apply {s : Shape} (deg zeros zeros' : FVec Ideal s .f32) (i : s.Idx)
    (hz : zeros i = Ideal.ofBits .f32 0x00000000#32) (hz' : zeros' i = Ideal.ofBits .f32 0x00000000#32)
    (hd : ∃ r : ℝ, deg i = (r : EReal)) :
    ∃ r : ℝ, select (cmpf .ogt deg zeros) (Host.rsqrt deg) zeros' i = (r : EReal) := by
  show ∃ r : ℝ, Scalar.select (FloatOps.cmpf .ogt (deg i) (zeros i)) (FloatOps.hostUnary .rsqrt (deg i)) (zeros' i) = (r : EReal)
  rw [hz, hz']
  exact dinv_real (deg i) hd

end Cert.Gcn.Finite
end
-- ==== Proof.DinvReal.lean ====
/-
  THE DEGREE AND ITS INVERSE SQUARE ROOT ARE REAL NUMBERS. The degree vector is the accumulating scatter of the
  constant 1 into zeros: at each index, 0 plus the sum of the update entries that land there, every one of which
  is 1, so the number of such updates — a natural number, whatever the index words are. where(deg > 0, rsqrt deg, 0)
  of a real number is a real number (1/√deg where deg is positive, 0 elsewhere).
-/
import proofs.«147672_j1675037246076_2_alg».proof.Proof.Finite
import proofs.«147672_j1675037246076_2_alg».proof.Proof.RefRead

noncomputable section

namespace Cert.Gcn.Finite

open Idealize.ShloMosaic

/-- The word 0x3F800000 denotes 1. -/
theorem one_eq : Ideal.ofBits .f32 0x3F800000#32 = (1 : EReal) := by
  simp [Ideal.ofBits, Ideal.ieee, -EReal.coe_mul]; norm_num

/-- A finite sum of ones in the extended reals is the number of its terms. -/
theorem sum_ones {ι : Type} (S : Finset ι) (f : ι → EReal) (hf : ∀ j, f j = 1) :
    ∑ j ∈ S, f j = (((S.card : ℕ) : ℝ) : EReal) := by
  rw [Finset.sum_congr rfl (fun j _ => hf j), Finset.sum_const, nsmul_one]
  rfl

/-- The accumulating scatter of ones into zeros counts, at each index, the updates that land there: a natural number. -/
theorem deg_nat {s si u : Shape} {w : Nat} (d : ScatterDims s si u) (x : FVec Ideal s .f32) (idx : IVec si w)
    (upd : FVec Ideal u .f32) (hx : ∀ i, x i = Ideal.ofBits .f32 0x00000000#32)
    (hu : ∀ j, upd j = Ideal.ofBits .f32 0x3F800000#32) (i : s.Idx) :
    ∃ n : ℕ, Host.scatterAdd (F := Ideal) d x idx upd i = (((n : ℕ) : ℝ) : EReal) := by
  change ∃ n : ℕ, Ideal.hostScatterAdd d x idx upd i = (((n : ℕ) : ℝ) : EReal)
  unfold Ideal.hostScatterAdd
  refine ⟨?_, ?_⟩
  swap
  · rw [hx, zero_eq, zero_add, sum_ones _ _ (fun j => (hu j).trans one_eq)]

/-- In particular a real number. -/
theorem deg_real {s si u : Shape} {w : Nat} (d : ScatterDims s si u) (x : FVec Ideal s .f32) (idx : IVec si w)
    (upd : FVec Ideal u .f32) (hx : ∀ i, x i = Ideal.ofBits .f32 0x00000000#32)
    (hu : ∀ j, upd j = Ideal.ofBits .f32 0x3F800000#32) (i : s.Idx) :
    ∃ r : ℝ, Host.scatterAdd (F := Ideal) d x idx upd i = (r : EReal) := by
  obtain ⟨n, hn⟩ := deg_nat d x idx upd hx hu i
  exact ⟨n, hn⟩

/-! ## The reference's inverse square-root degree is a real number -/

open Cert.ReferenceIdeal Cert.ReferenceIdeal.Gen Cert.ReferenceIdeal.ReadP in
/-- The reference's degree vector (the scatter-add of ones into zeros at the destination words) is a natural
    number at every node. -/
theorem deg_nat_ref (x1 : IVec Cert.ReferenceIdeal.S2x3200000 32) (i : Cert.ReferenceIdeal.S100000.Idx) :
    ∃ n : ℕ, val_main_v11 (F := Ideal) x1 i = (((n : ℕ) : ℝ) : EReal) := by
  unfold val_main_v11
  exact deg_nat _ _ _ _ (fun _ => rfl) (fun _ => rfl) i

open Cert.ReferenceIdeal Cert.ReferenceIdeal.Gen Cert.ReferenceIdeal.ReadP in
/-- The reference's where(deg > 0, rsqrt deg, 0) is a real number at every node. -/
theorem dinv_real_ref (x1 : IVec Cert.ReferenceIdeal.S2x3200000 32) (i : Cert.ReferenceIdeal.S100000.Idx) :
    ∃ r : ℝ, val_main_v15 (F := Ideal) x1 i = (r : EReal) := by
  unfold val_main_v15 val_main_v13 val_main_v14
  refine dinv_real_apply (val_main_v11 (F := Ideal) x1) (val_main_v12 (F := Ideal)) (val_main_call0_v1 (F := Ideal)) i rfl rfl ?_
  obtain ⟨n, hn⟩ := deg_nat_ref x1 i
  exact ⟨n, hn⟩

end Cert.Gcn.Finite
end
-- ==== Proof.lean ====
/-
  A two-layer graph convolution on 100000 nodes and 3300000 edges (the 3200000 given edges and one self-loop per
  node), computed in two arrangements.

  With `deg v` the number of edges whose destination word is `v` and `dinv v` its inverse square root (`0` where the
  degree is `0`), one layer sends a node array `h` to `v ↦ ∑_{e into v} dinv(src e) · dinv(v) · h[src e, ·]`. The
  kernel aggregates FIRST and multiplies by the layer's weights afterwards, in two row-tiled dense stages
  (`relu(a·W1 + b1)·W2` and `relu(a + b2)·Wfc + bfc`), scaling by `dinv` before the gather and after the scatter; the
  reference multiplies by the weights first and weighs each edge by `dinv(src e) · dinv(dst e)`. Over the extended
  reals the two agree because the aggregation is linear (a finite sum commutes with the product by a weight matrix
  and with a scalar factor) and because an edge into `v` reads `dinv v` through its destination word. Linearity holds
  for real entries only — at an infinity a factor does not move across a sum — and that is where the precondition is
  used: every float input is finite, the degree is a natural number, so `dinv` is real.

  The pieces: `Indexing` reads the accumulating scatter and the gathers at an index; `Algebra` moves a factor across
  a sum of reals; `Spec` states the two arrangements and proves them equal on real data; `Layer` reads one aggregation
  as each program spells it; `KRun`, `KRegion0`, `KRegion1`, `KHost`, `KHostB`, `KHostC`, `KValue`, `KResult` read the kernel's run (the two
  tiled stages cover the node rows block by block, the host operations around them are read back); `RefValue` reads the
  reference's run; `Finite` and `DinvReal` turn the precondition into real entries.
-/
import proofs.«147672_j1675037246076_2_alg».proof.Defs
import proofs.«147672_j1675037246076_2_alg».proof.Proof.Gen.Kernel
import proofs.«147672_j1675037246076_2_alg».proof.Proof.Gen.Kernel.Skeleton
import proofs.«147672_j1675037246076_2_alg».proof.Proof.Gen.Kernel.Launch
import proofs.«147672_j1675037246076_2_alg».proof.Proof.Gen.Kernel.Points
import proofs.«147672_j1675037246076_2_alg».proof.Proof.Gen.Kernel.Frame
import proofs.«147672_j1675037246076_2_alg».proof.Proof.Gen.KernelIdeal
import proofs.«147672_j1675037246076_2_alg».proof.Proof.Gen.KernelIdeal.Skeleton
import proofs.«147672_j1675037246076_2_alg».proof.Proof.Gen.KernelIdeal.Launch
import proofs.«147672_j1675037246076_2_alg».proof.Proof.Gen.KernelIdeal.Points
import proofs.«147672_j1675037246076_2_alg».proof.Proof.Gen.KernelIdeal.Frame
import proofs.«147672_j1675037246076_2_alg».proof.Proof.Gen.ReferenceIdeal
import proofs.«147672_j1675037246076_2_alg».proof.Proof.Gen.Pre_finite_inputs
import proofs.«147672_j1675037246076_2_alg».proof.Proof.KResult
import proofs.«147672_j1675037246076_2_alg».proof.Proof.RefValue
import proofs.«147672_j1675037246076_2_alg».proof.Proof.DinvReal
import Idealize.ShloMosaic.Adequacy
import Idealize.ShloMosaic.Init

noncomputable section

namespace Cert.Proof

open Idealize.ShloMosaic Idealize.SL.Sem Cert.Gcn

/-! ## The frames -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-! ## The two programs compute one function -/

/-- Both runs end with the result array at the first arrangement of the launch arrays: the kernel's by its value
    (`KV.kernel_value`), the reference's by its own (`RefValue.result_eq`, the second arrangement) and the bridge
    `aggThenDense_eq_denseThenAgg`, whose hypotheses — real entries, real `dinv`, an edge into `v` reads row `v` — come
    from the precondition, the degree being a count, and the wrapped destination word. -/
theorem algebraic : Cert.algebraic_KernelIdeal_ReferenceIdeal := by
  intro m ρ m' ρ' hpre hagree
  refine ⟨fun c => aggThenDense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (rowOf (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (rowOf (m ((c.tc : Thread Cert.KernelIdeal.nD Cert.KernelIdeal.τ).loc Cert.KernelIdeal.main_arg5)))
      (m ((c.tc : Thread Cert.KernelIdeal.nD Cert.KernelIdeal.τ).loc Cert.KernelIdeal.main_arg6))
      (rowOf (m ((c.tc : Thread Cert.KernelIdeal.nD Cert.KernelIdeal.τ).loc Cert.KernelIdeal.main_arg7)))
      (Cert.ReferenceIdeal.ReadP.val_main_v36 (F := Ideal)
        (m ((c.tc : Thread Cert.KernelIdeal.nD Cert.KernelIdeal.τ).loc Cert.KernelIdeal.main_arg1)))
      (Cert.ReferenceIdeal.ReadP.val_main_v42 (F := Ideal)
        (m ((c.tc : Thread Cert.KernelIdeal.nD Cert.KernelIdeal.τ).loc Cert.KernelIdeal.main_arg1)))
      (Cert.ReferenceIdeal.ReadP.val_main_v15 (F := Ideal)
        (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.KV.kernel_value m ρ c), (h c).2⟩)
      (Cert.KernelIdeal.KV.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7⟩ := hagree c
    obtain ⟨hx, hW1, hb1, hW2, -, -, -⟩ := Cert.Gcn.Finite.finite_of_pre _ _ _ _ _ _ _ _ (hpre c)
    rw [Cert.ReferenceIdeal.ReadP.val_main_v95_eq, Cert.ReferenceIdeal.RefValue.result_eq,
      Cert.ReferenceIdeal.RefValue.bias1_eq, Cert.ReferenceIdeal.RefValue.bias2_eq,
      Cert.ReferenceIdeal.RefValue.bias3_eq, a0, a1, a2, a3, a4, a5, a6, a7]
    exact (aggThenDense_eq_denseThenAgg _ _ _ _ _ _ _ _ _ _ _ hx hW1 (fun i => hb1 _) hW2
      (fun i => Cert.Gcn.Finite.dinv_real_ref _ i) (fun e v hv => Cert.ReferenceIdeal.RefValue.dst_row _ e v hv)).symm

/-- The certificate: the three frames, the trivial idealization statement and the equivalence. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
